-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1728x4x4x4 : Shape := ⟨4, ![1728, 4, 4, 4]⟩
abbrev S13824x512 : Shape := ⟨2, ![13824, 512]⟩
abbrev S1728x512 : Shape := ⟨2, ![1728, 512]⟩
abbrev S256x512 : Shape := ⟨2, ![256, 512]⟩
abbrev S256 : Shape := ⟨1, ![256]⟩
abbrev S128x512 : Shape := ⟨2, ![128, 512]⟩
abbrev S128 : Shape := ⟨1, ![128]⟩
abbrev S_ : Shape := ⟨0, ![]⟩

class Facts : Prop where
  bcast_S_S1728x4x4x4 : S_.BroadcastsInDim S1728x4x4x4 (![] : Fin 0 → Fin S1728x4x4x4.rank)
  reducesTo_S1728x4x4x4_S_d0_1_2_3 : S1728x4x4x4.ReducesTo [0, 1, 2, 3] S_
  h_S_ : 0 < S_.numel
  bcast_S_S13824x512 : S_.BroadcastsInDim S13824x512 (![] : Fin 0 → Fin S13824x512.rank)
  reducesTo_S13824x512_S_d0_1 : S13824x512.ReducesTo [0, 1] S_
  bcast_S_S1728x512 : S_.BroadcastsInDim S1728x512 (![] : Fin 0 → Fin S1728x512.rank)
  reducesTo_S1728x512_S_d0_1 : S1728x512.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_arg15 : FVec F S128x512 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x512 .f32 := Host.absf main_arg15
  let main_cst_28 : FVec F S_ .f32 := constant S_ .f32 0x7F800000#32
  let main_v75 : FVec F S128x512 .f32 := broadcastInDim S128x512 ![] bcast_S_S128x512 main_cst_28
  let main_v76 : IVec S128x512 1 := cmpf .olt main_v74 main_v75
  let main_c_29 : IVec S_ 1 := constantI S_ 1 1#1
  let main_v77 : IVec S_ 1 := (fun x v => Host.reduce IntOp.andi x v reducesTo_S128x512_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg11 : FVec F S128x512 .f32) (main_arg12 : FVec F S128 .f32) (main_arg13 : FVec F S128x512 .f32) (main_arg14 : FVec F S128 .f32) (main_arg15 : FVec F S128x512 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x512 .f32 := Host.absf main_arg11
  let main_cst_20 : FVec F S_ .f32 := constant S_ .f32 0x7F800000#32
  let main_v55 : FVec F S128x512 .f32 := broadcastInDim S128x512 ![] bcast_S_S128x512 main_cst_20
  let main_v56 : IVec S128x512 1 := cmpf .olt main_v54 main_v55
  let main_c_21 : IVec S_ 1 := constantI S_ 1 1#1
  let main_v57 : IVec S_ 1 := (fun x v => Host.reduce IntOp.andi x v reducesTo_S128x512_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x512 .f32 := Host.absf main_arg13
  let main_cst_24 : FVec F S_ .f32 := constant S_ .f32 0x7F800000#32
  let main_v65 : FVec F S128x512 .f32 := broadcastInDim S128x512 ![] bcast_S_S128x512 main_cst_24
  let main_v66 : IVec S128x512 1 := cmpf .olt main_v64 main_v65
  let main_c_25 : IVec S_ 1 := constantI S_ 1 1#1
  let main_v67 : IVec S_ 1 := (fun x v => Host.reduce IntOp.andi x v reducesTo_S128x512_S_d0_1 h_S_) main_v66 main_c_25
  fn_part4 (F := F) main_arg14 main_arg15 main_arg16 main_v63 main_v67

def fn_part2 {F : FTy → Type} [FloatOps F] (main_arg7 : FVec F S256x512 .f32) (main_arg8 : FVec F S256 .f32) (main_arg9 : FVec F S128x512 .f32) (main_arg10 : FVec F S128 .f32) (main_arg11 : FVec F S128x512 .f32) (main_arg12 : FVec F S128 .f32) (main_arg13 : FVec F S128x512 .f32) (main_arg14 : FVec F S128 .f32) (main_arg15 : FVec F S128x512 .f32) (main_arg16 : FVec F S128 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S128x512 .f32 := Host.absf main_arg9
  let main_cst_16 : FVec F S_ .f32 := constant S_ .f32 0x7F800000#32
  let main_v45 : FVec F S128x512 .f32 := broadcastInDim S128x512 ![] bcast_S_S128x512 main_cst_16
  let main_v46 : IVec S128x512 1 := cmpf .olt main_v44 main_v45
  let main_c_17 : IVec S_ 1 := constantI S_ 1 1#1
  let main_v47 : IVec S_ 1 := (fun x v => Host.reduce IntOp.andi x v reducesTo_S128x512_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_v48 main_v49 main_v50

def fn_part1 {F : FTy → Type} [FloatOps F] (main_arg4 : FVec F S1728x512 .f32) (main_arg5 : FVec F S256x512 .f32) (main_arg6 : FVec F S256 .f32) (main_arg7 : FVec F S256x512 .f32) (main_arg8 : FVec F S256 .f32) (main_arg9 : FVec F S128x512 .f32) (main_arg10 : FVec F S128 .f32) (main_arg11 : FVec F S128x512 .f32) (main_arg12 : FVec F S128 .f32) (main_arg13 : FVec F S128x512 .f32) (main_arg14 : FVec F S128 .f32) (main_arg15 : FVec F S128x512 .f32) (main_arg16 : FVec F S128 .f32) (main_v13 : IVec S_ 1) (main_v16 : IVec S13824x512 1) : IVec S_ 1 :=
  let main_c_5 : IVec S_ 1 := constantI S_ 1 1#1
  let main_v17 : IVec S_ 1 := (fun x v => Host.reduce IntOp.andi x v reducesTo_S13824x512_S_d0_1 h_S_) main_v16 main_c_5
  let main_v18 : IVec S_ 1 := andi main_v13 main_v17
  let main_v19 : FVec F S1728x512 .f32 := Host.absf main_arg4
  let main_cst_6 : FVec F S_ .f32 := constant S_ .f32 0x7F800000#32
  let main_v20 : FVec F S1728x512 .f32 := broadcastInDim S1728x512 ![] bcast_S_S1728x512 main_cst_6
  let main_v21 : IVec S1728x512 1 := cmpf .olt main_v19 main_v20
  let main_c_7 : IVec S_ 1 := constantI S_ 1 1#1
  let main_v22 : IVec S_ 1 := (fun x v => Host.reduce IntOp.andi x v reducesTo_S1728x512_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S1728x4x4x4 .f32) (main_arg1 : FVec F S13824x512 .f32) (main_arg2 : FVec F S1728x512 .f32) (main_arg3 : FVec F S13824x512 .f32) (main_arg4 : FVec F S1728x512 .f32) (main_arg5 : FVec F S256x512 .f32) (main_arg6 : FVec F S256 .f32) (main_arg7 : FVec F S256x512 .f32) (main_arg8 : FVec F S256 .f32) (main_arg9 : FVec F S128x512 .f32) (main_arg10 : FVec F S128 .f32) (main_arg11 : FVec F S128x512 .f32) (main_arg12 : FVec F S128 .f32) (main_arg13 : FVec F S128x512 .f32) (main_arg14 : FVec F S128 .f32) (main_arg15 : FVec F S128x512 .f32) (main_arg16 : FVec F S128 .f32) : IVec S_ 1 :=
  let main_v0 : FVec F S1728x4x4x4 .f32 := Host.absf main_arg0
  let main_cst : FVec F S_ .f32 := constant S_ .f32 0x7F800000#32
  let main_v1 : FVec F S1728x4x4x4 .f32 := broadcastInDim S1728x4x4x4 ![] bcast_S_S1728x4x4x4 main_cst
  let main_v2 : IVec S1728x4x4x4 1 := cmpf .olt main_v0 main_v1
  let main_c : IVec S_ 1 := constantI S_ 1 1#1
  let main_v3 : IVec S_ 1 := (fun x v => Host.reduce IntOp.andi x v reducesTo_S1728x4x4x4_S_d0_1_2_3 h_S_) main_v2 main_c
  let main_v4 : FVec F S13824x512 .f32 := Host.absf main_arg1
  let main_cst_0 : FVec F S_ .f32 := constant S_ .f32 0x7F800000#32
  let main_v5 : FVec F S13824x512 .f32 := broadcastInDim S13824x512 ![] bcast_S_S13824x512 main_cst_0
  let main_v6 : IVec S13824x512 1 := cmpf .olt main_v4 main_v5
  let main_c_1 : IVec S_ 1 := constantI S_ 1 1#1
  let main_v7 : IVec S_ 1 := (fun x v => Host.reduce IntOp.andi x v reducesTo_S13824x512_S_d0_1 h_S_) main_v6 main_c_1
  let main_v8 : IVec S_ 1 := andi main_v3 main_v7
  let main_v9 : FVec F S1728x512 .f32 := Host.absf main_arg2
  let main_cst_2 : FVec F S_ .f32 := constant S_ .f32 0x7F800000#32
  let main_v10 : FVec F S1728x512 .f32 := broadcastInDim S1728x512 ![] bcast_S_S1728x512 main_cst_2
  let main_v11 : IVec S1728x512 1 := cmpf .olt main_v9 main_v10
  let main_c_3 : IVec S_ 1 := constantI S_ 1 1#1
  let main_v12 : IVec S_ 1 := (fun x v => Host.reduce IntOp.andi x v reducesTo_S1728x512_S_d0_1 h_S_) main_v11 main_c_3
  let main_v13 : IVec S_ 1 := andi main_v8 main_v12
  let main_v14 : FVec F S13824x512 .f32 := Host.absf main_arg3
  let main_cst_4 : FVec F S_ .f32 := constant S_ .f32 0x7F800000#32
  let main_v15 : FVec F S13824x512 .f32 := broadcastInDim S13824x512 ![] bcast_S_S13824x512 main_cst_4
  let main_v16 : IVec S13824x512 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S1728x4x4x4 : Shape := ⟨4, ![1728, 4, 4, 4]⟩
abbrev S13824x512 : Shape := ⟨2, ![13824, 512]⟩
abbrev S1728x512 : Shape := ⟨2, ![1728, 512]⟩
abbrev S256x512 : Shape := ⟨2, ![256, 512]⟩
abbrev S256 : Shape := ⟨1, ![256]⟩
abbrev S128x512 : Shape := ⟨2, ![128, 512]⟩
abbrev S128 : Shape := ⟨1, ![128]⟩
abbrev S1x256 : Shape := ⟨2, ![1, 256]⟩
abbrev S1728x256 : Shape := ⟨2, ![1728, 256]⟩
abbrev S1728x64 : Shape := ⟨2, ![1728, 64]⟩
abbrev S_ : Shape := ⟨0, ![]⟩
abbrev S1728x128 : Shape := ⟨2, ![1728, 128]⟩
abbrev S13824x128 : Shape := ⟨2, ![13824, 128]⟩
abbrev S1152x512 : Shape := ⟨2, ![1152, 512]⟩
abbrev S1152x128 : Shape := ⟨2, ![1152, 128]⟩
abbrev S1152x256 : Shape := ⟨2, ![1152, 256]⟩
abbrev S1152x1728 : Shape := ⟨2, ![1152, 1728]⟩
abbrev S1152 : Shape := ⟨1, ![1152]⟩
abbrev S1152x1 : Shape := ⟨2, ![1152, 1]⟩
abbrev S13824x64 : Shape := ⟨2, ![13824, 64]⟩
abbrev S13824x4x4x4 : Shape := ⟨4, ![13824, 4, 4, 4]⟩

abbrev nBuf : Space → Nat
  | .hbm => 39
  | .vmem => 21
  | .smem => 0
  | _ => 0

abbrev bufTy : (tb : Table) → Fin (tcTables nBuf tb) → BufTy
  | .hbm, ⟨0, _⟩ => ⟨S1728x4x4x4, .f32⟩
  | .hbm, ⟨1, _⟩ => ⟨S13824x512, .f32⟩
  | .hbm, ⟨2, _⟩ => ⟨S1728x512, .f32⟩
  | .hbm, ⟨3, _⟩ => ⟨S13824x512, .f32⟩
  | .hbm, ⟨4, _⟩ => ⟨S1728x512, .f32⟩
  | .hbm, ⟨5, _⟩ => ⟨S256x512, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S128x512, .f32⟩
  | .hbm, ⟨10, _⟩ => ⟨S128, .f32⟩
  | .hbm, ⟨11, _⟩ => ⟨S128x512, .f32⟩
  | .hbm, ⟨12, _⟩ => ⟨S128, .f32⟩
  | .hbm, ⟨13, _⟩ => ⟨S128x512, .f32⟩
  | .hbm, ⟨14, _⟩ => ⟨S128, .f32⟩
  | .hbm, ⟨15, _⟩ => ⟨S128x512, .f32⟩
  | .hbm, ⟨16, _⟩ => ⟨S128, .f32⟩
  | .hbm, ⟨17, _⟩ => ⟨S256x512, .f32⟩
  | .hbm, ⟨18, _⟩ => ⟨S256, .f32⟩
  | .hbm, ⟨19, _⟩ => ⟨S256x512, .f32⟩
  | .hbm, ⟨20, _⟩ => ⟨S256, .f32⟩
  | .hbm, ⟨21, _⟩ => ⟨S256x512, .bf16⟩
  | .hbm, ⟨22, _⟩ => ⟨S256x512, .bf16⟩
  | .hbm, ⟨23, _⟩ => ⟨S256x512, .bf16⟩
  | .hbm, ⟨24, _⟩ => ⟨S256x512, .bf16⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1728x256, .f32⟩
  | .hbm, ⟨30, _⟩ => ⟨S1728x256, .f32⟩
  | .hbm, ⟨31, _⟩ => ⟨S1728x64, .f32⟩
  | .hbm, ⟨32, _⟩ => ⟨S_, .i32⟩
  | .hbm, ⟨33, _⟩ => ⟨S_, .f32⟩
  | .hbm, ⟨34, _⟩ => ⟨S1728x128, .f32⟩
  | .hbm, ⟨35, _⟩ => ⟨S1728x128, .bf16⟩
  | .hbm, ⟨36, _⟩ => ⟨S13824x128, .f32⟩
  | .hbm, ⟨37, _⟩ => ⟨S13824x64, .f32⟩
  | .hbm, ⟨38, _⟩ => ⟨S13824x4x4x4, .f32⟩
  | .local _ .vmem, ⟨0, _⟩ => ⟨S1728x512, .f32⟩
  | .local _ .vmem, ⟨1, _⟩ => ⟨S1728x512, .f32⟩
  | .local _ .vmem, ⟨2, _⟩ => ⟨S256x512, .bf16⟩
  | .local _ .vmem, ⟨3, _⟩ => ⟨S1x256, .f32⟩
  | .local _ .vmem, ⟨4, _⟩ => ⟨S256x512, .bf16⟩
  | .local _ .vmem, ⟨5, _⟩ => ⟨S1x256, .f32⟩
  | .local _ .vmem, ⟨6, _⟩ => ⟨S1728x256, .f32⟩
  | .local _ .vmem, ⟨7, _⟩ => ⟨S1728x256, .f32⟩
  | .local _ .vmem, ⟨8, _⟩ => ⟨S1152x512, .f32⟩
  | .local _ .vmem, ⟨9, _⟩ => ⟨S1152x512, .f32⟩
  | .local _ .vmem, ⟨10, _⟩ => ⟨S1152x512, .f32⟩
  | .local _ .vmem, ⟨11, _⟩ => ⟨S1152x512, .f32⟩
  | .local _ .vmem, ⟨12, _⟩ => ⟨S256x512, .bf16⟩
  | .local _ .vmem, ⟨13, _⟩ => ⟨S1x256, .f32⟩
  | .local _ .vmem, ⟨14, _⟩ => ⟨S256x512, .bf16⟩
  | .local _ .vmem, ⟨15, _⟩ => ⟨S1x256, .f32⟩
  | .local _ .vmem, ⟨16, _⟩ => ⟨S1728x256, .f32⟩
  | .local _ .vmem, ⟨17, _⟩ => ⟨S1728x256, .f32⟩
  | .local _ .vmem, ⟨18, _⟩ => ⟨S1728x128, .bf16⟩
  | .local _ .vmem, ⟨19, _⟩ => ⟨S1152x128, .f32⟩
  | .local _ .vmem, ⟨20, _⟩ => ⟨S1152x128, .f32⟩
  | _, _ => ⟨S1728x4x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12_0 : Ref sig .tc := ⟨.hbm, 29, rfl⟩
abbrev main_v12_1 : Ref sig .tc := ⟨.hbm, 30, rfl⟩
abbrev main_v13 : Ref sig .tc := ⟨.hbm, 31, rfl⟩
abbrev main_c : Ref sig .tc := ⟨.hbm, 32, rfl⟩
abbrev main_call0_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1728x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1728x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1728x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1728x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1152x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1152x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1728x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1728x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1728x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1152x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  concatenates_S128x512_S128x512_S256x512_d0 : Shape.Concatenates [S128x512, S128x512] S256x512 0
  concatenates_S128_S128_S256_d0 : Shape.Concatenates [S128, S128] S256 0
  bitsLt_bf16_f32 : FTy.bits .bf16 < FTy.bits .f32
  shapeCasts_S256_S1x256 : S256.ShapeCasts S1x256
  inb_S1728x512_S1728x512_0_0 : ∀ a, (![0, 0] : Fin 2 → Nat) a + S1728x512.size a ≤ S1728x512.size a
  h_S1728x512 : 0 < S1728x512.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1728x256 : S1x256.Broadcasts S1728x256
  inb_S1728x256_S1728x256_0_0 : ∀ a, (![0, 0] : Fin 2 → Nat) a + S1728x256.size a ≤ S1728x256.size a
  h_S1728x256 : 0 < S1728x256.numel
  shapeCasts_S1728x4x4x4_S1728x64 : S1728x4x4x4.ShapeCasts S1728x64
  pads_S1728x64_S1728x128_000_0640 : S1728x64.Pads (![0, 0] : Fin 2 → Nat) ![0, 64] ![0, 0] S1728x128
  h_S_ : 0 < S_.numel
  inb_S1152x512_S1152x512_0_0 : ∀ a, (![0, 0] : Fin 2 → Nat) a + S1152x512.size a ≤ S1152x512.size a
  h_S1152x512 : 0 < S1152x512.numel
  broadcasts_S1x256_S1152x256 : S1x256.Broadcasts S1152x256
  slices_S1152x256_o0_0_S1152x128 : S1152x256.Slices ![0, 0] S1152x128
  slices_S1152x256_o0_128_S1152x128 : S1152x256.Slices ![0, 128] S1152x128
  shapeCasts_S1728x256_S1728x256 : S1728x256.ShapeCasts S1728x256
  slices_S1728x256_o0_0_S1728x128 : S1728x256.Slices ![0, 0] S1728x128
  slices_S1728x256_o0_128_S1728x128 : S1728x256.Slices ![0, 128] S1728x128
  inb_S1728x128_S1728x128_0_0 : ∀ a, (![0, 0] : Fin 2 → Nat) a + S1728x128.size a ≤ S1728x128.size a
  h_S1728x128 : 0 < S1728x128.numel
  shapeCasts_S1728x128_S1728x128 : S1728x128.ShapeCasts S1728x128
  reduces_S1152x1728_S1152 : S1152x1728.Reduces [1] S1152
  shapeCasts_S1152_S1152x1 : S1152.ShapeCasts S1152x1
  broadcasts_S1152x1_S1152x1728 : S1152x1.Broadcasts S1152x1728
  broadcasts_S1152x1_S1152x128 : S1152x1.Broadcasts S1152x128
  inb_S1152x128_S1152x128_0_0 : ∀ a, (![0, 0] : Fin 2 → Nat) a + S1152x128.size a ≤ S1152x128.size a
  h_S1152x128 : 0 < S1152x128.numel
  slices_S13824x128_S13824x64_0_0 : S13824x128.Slices ![0, 0] S13824x64
  shapeCasts_S13824x64_S13824x4x4x4 : S13824x64.ShapeCasts S13824x4x4x4
  dot_S1728x512_S256x512_S1728x256_1_1_0_0_n_n_wf : DotDims.WF S1728x512 S256x512 S1728x256 [1] [1] [0] [0] [] []
  dot_S1152x512_S256x512_S1152x256_1_1_0_0_n_n_wf : DotDims.WF S1152x512 S256x512 S1152x256 [1] [1] [0] [0] [] []
  dot_S1152x256_S1728x256_S1152x1728_1_1_0_0_n_n_wf : DotDims.WF S1152x256 S1728x256 S1152x1728 [1] [1] [0] [0] [] []
  dot_S1152x128_S1728x128_S1152x1728_1_1_0_0_n_n_wf : DotDims.WF S1152x128 S1728x128 S1152x1728 [1] [1] [0] [0] [] []
  dot_S1152x1728_S1728x128_S1152x128_1_0_0_1_n_n_wf : DotDims.WF S1152x1728 S1728x128 S1152x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1728x512.size a ≤ S1728x512.size a
  hwx0_0 : ∀ i : grid0.Coords, EltTy.bits .f32 = 32 ∨ (Rect.block (s := S1728x512) S1728x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1728x512.size a ≤ S1728x512.size a
  hwx0_1 : ∀ i : grid0.Coords, EltTy.bits .f32 = 32 ∨ (Rect.block (s := S1728x512) S1728x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .bf16 = 32 ∨ (Rect.block (s := S256x512) S256x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1728x256.size a ≤ S1728x256.size a
  hwx0_6 : ∀ i : grid0.Coords, EltTy.bits .f32 = 32 ∨ (Rect.block (s := S1728x256) S1728x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1728x256.size a ≤ S1728x256.size a
  hwx0_7 : ∀ i : grid0.Coords, EltTy.bits .f32 = 32 ∨ (Rect.block (s := S1728x256) S1728x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1152x512.size a ≤ S13824x512.size a
  hwx1_0 : ∀ i : grid1.Coords, EltTy.bits .f32 = 32 ∨ (Rect.block (s := S13824x512) S1152x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1152x512.size a ≤ S13824x512.size a
  hwx1_1 : ∀ i : grid1.Coords, EltTy.bits .f32 = 32 ∨ (Rect.block (s := S13824x512) S1152x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .bf16 = 32 ∨ (Rect.block (s := S256x512) S256x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S256x512.size a
  hwx1_4 : ∀ i : grid1.Coords, EltTy.bits .bf16 = 32 ∨ (Rect.block (s := S256x512) S256x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1728x256.size a ≤ S1728x256.size a
  hwx1_6 : ∀ i : grid1.Coords, EltTy.bits .f32 = 32 ∨ (Rect.block (s := S1728x256) S1728x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1728x256.size a ≤ S1728x256.size a
  hwx1_7 : ∀ i : grid1.Coords, EltTy.bits .f32 = 32 ∨ (Rect.block (s := S1728x256) S1728x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1728x128.size a ≤ S1728x128.size a
  hwx1_8 : ∀ i : grid1.Coords, EltTy.bits .bf16 = 32 ∨ (Rect.block (s := S1728x128) S1728x128.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1152x128.size a ≤ S13824x128.size a
  hwx1_9 : ∀ i : grid1.Coords, EltTy.bits .f32 = 32 ∨ (Rect.block (s := S13824x128) S1152x128.size (cc1_transform_9 i) (hinb1_9 i)).WholeWords (EltTy.packing .f32)

variable [Facts₀]

def dot_S1728x512_S256x512_S1728x256_1_1_0_0_n_n : DotDims S1728x512 S256x512 S1728x256 where
  lhsContracting := [1]
  rhsContracting := [1]
  lhsNonContracting := [0]
  rhsNonContracting := [0]
  lhsBatch := []
  rhsBatch := []
  wf := dot_S1728x512_S256x512_S1728x256_1_1_0_0_n_n_wf
def dot_S1152x512_S256x512_S1152x256_1_1_0_0_n_n : DotDims S1152x512 S256x512 S1152x256 where
  lhsContracting := [1]
  rhsContracting := [1]
  lhsNonContracting := [0]
  rhsNonContracting := [0]
  lhsBatch := []
  rhsBatch := []
  wf := dot_S1152x512_S256x512_S1152x256_1_1_0_0_n_n_wf
def dot_S1152x256_S1728x256_S1152x1728_1_1_0_0_n_n : DotDims S1152x256 S1728x256 S1152x1728 where
  lhsContracting := [1]
  rhsContracting := [1]
  lhsNonContracting := [0]
  rhsNonContracting := [0]
  lhsBatch := []
  rhsBatch := []
  wf := dot_S1152x256_S1728x256_S1152x1728_1_1_0_0_n_n_wf
def dot_S1152x128_S1728x128_S1152x1728_1_1_0_0_n_n : DotDims S1152x128 S1728x128 S1152x1728 where
  lhsContracting := [1]
  rhsContracting := [1]
  lhsNonContracting := [0]
  rhsNonContracting := [0]
  lhsBatch := []
  rhsBatch := []
  wf := dot_S1152x128_S1728x128_S1152x1728_1_1_0_0_n_n_wf
def dot_S1152x1728_S1728x128_S1152x128_1_0_0_1_n_n : DotDims S1152x1728 S1728x128 S1152x128 where
  lhsContracting := [1]
  rhsContracting := [0]
  lhsNonContracting := [0]
  rhsNonContracting := [1]
  lhsBatch := []
  rhsBatch := []
  wf := dot_S1152x1728_S1728x128_S1152x128_1_0_0_1_n_n_wf

abbrev win0_0 : Pipeline.Window sig grid0 :=
  Pipeline.Window.ofSpec (Memref.whole main_arg2) S1728x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1728x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S1728x256.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S1728x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S1152x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1152x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S256x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12_0) S1728x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12_1) S1728x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S1728x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v16) S1152x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S1728x4x4x4 : Shape := ⟨4, ![1728, 4, 4, 4]⟩
abbrev S13824x512 : Shape := ⟨2, ![13824, 512]⟩
abbrev S1728x512 : Shape := ⟨2, ![1728, 512]⟩
abbrev S256x512 : Shape := ⟨2, ![256, 512]⟩
abbrev S256 : Shape := ⟨1, ![256]⟩
abbrev S128x512 : Shape := ⟨2, ![128, 512]⟩
abbrev S128 : Shape := ⟨1, ![128]⟩
abbrev S512x256 : Shape := ⟨2, ![512, 256]⟩
abbrev S13824x256 : Shape := ⟨2, ![13824, 256]⟩
abbrev S1x256 : Shape := ⟨2, ![1, 256]⟩
abbrev S1728x256 : Shape := ⟨2, ![1728, 256]⟩
abbrev S512x128 : Shape := ⟨2, ![512, 128]⟩
abbrev S13824x128 : Shape := ⟨2, ![13824, 128]⟩
abbrev S1x128 : Shape := ⟨2, ![1, 128]⟩
abbrev S1728x128 : Shape := ⟨2, ![1728, 128]⟩
abbrev S128x1728 : Shape := ⟨2, ![128, 1728]⟩
abbrev S13824x1728 : Shape := ⟨2, ![13824, 1728]⟩
abbrev S_ : Shape := ⟨0, ![]⟩
abbrev S256x1728 : Shape := ⟨2, ![256, 1728]⟩
abbrev S13824 : Shape := ⟨1, ![13824]⟩
abbrev S13824x1 : Shape := ⟨2, ![13824, 1]⟩
abbrev S1728x64 : Shape := ⟨2, ![1728, 64]⟩
abbrev S13824x64 : Shape := ⟨2, ![13824, 64]⟩
abbrev S13824x4x4x4 : Shape := ⟨4, ![13824, 4, 4, 4]⟩

abbrev nBuf : Space → Nat
  | .hbm => 93
  | .vmem => 0
  | .smem => 0
  | _ => 0

abbrev bufTy : (tb : Table) → Fin (tcTables nBuf tb) → BufTy
  | .hbm, ⟨0, _⟩ => ⟨S1728x4x4x4, .f32⟩
  | .hbm, ⟨1, _⟩ => ⟨S13824x512, .f32⟩
  | .hbm, ⟨2, _⟩ => ⟨S1728x512, .f32⟩
  | .hbm, ⟨3, _⟩ => ⟨S13824x512, .f32⟩
  | .hbm, ⟨4, _⟩ => ⟨S1728x512, .f32⟩
  | .hbm, ⟨5, _⟩ => ⟨S256x512, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S128x512, .f32⟩
  | .hbm, ⟨10, _⟩ => ⟨S128, .f32⟩
  | .hbm, ⟨11, _⟩ => ⟨S128x512, .f32⟩
  | .hbm, ⟨12, _⟩ => ⟨S128, .f32⟩
  | .hbm, ⟨13, _⟩ => ⟨S128x512, .f32⟩
  | .hbm, ⟨14, _⟩ => ⟨S128, .f32⟩
  | .hbm, ⟨15, _⟩ => ⟨S128x512, .f32⟩
  | .hbm, ⟨16, _⟩ => ⟨S128, .f32⟩
  | .hbm, ⟨17, _⟩ => ⟨S13824x512, .f32⟩
  | .hbm, ⟨18, _⟩ => ⟨S1728x512, .f32⟩
  | .hbm, ⟨19, _⟩ => ⟨S512x256, .f32⟩
  | .hbm, ⟨20, _⟩ => ⟨S13824x256, .f32⟩
  | .hbm, ⟨21, _⟩ => ⟨S1x256, .f32⟩
  | .hbm, ⟨22, _⟩ => ⟨S13824x256, .f32⟩
  | .hbm, ⟨23, _⟩ => ⟨S13824x256, .f32⟩
  | .hbm, ⟨24, _⟩ => ⟨S512x256, .f32⟩
  | .hbm, ⟨25, _⟩ => ⟨S1728x256, .f32⟩
  | .hbm, ⟨26, _⟩ => ⟨S1x256, .f32⟩
  | .hbm, ⟨27, _⟩ => ⟨S1728x256, .f32⟩
  | .hbm, ⟨28, _⟩ => ⟨S1728x256, .f32⟩
  | .hbm, ⟨29, _⟩ => ⟨S512x128, .f32⟩
  | .hbm, ⟨30, _⟩ => ⟨S13824x128, .f32⟩
  | .hbm, ⟨31, _⟩ => ⟨S1x128, .f32⟩
  | .hbm, ⟨32, _⟩ => ⟨S13824x128, .f32⟩
  | .hbm, ⟨33, _⟩ => ⟨S13824x128, .f32⟩
  | .hbm, ⟨34, _⟩ => ⟨S512x128, .f32⟩
  | .hbm, ⟨35, _⟩ => ⟨S1728x128, .f32⟩
  | .hbm, ⟨36, _⟩ => ⟨S1x128, .f32⟩
  | .hbm, ⟨37, _⟩ => ⟨S1728x128, .f32⟩
  | .hbm, ⟨38, _⟩ => ⟨S1728x128, .f32⟩
  | .hbm, ⟨39, _⟩ => ⟨S128x1728, .f32⟩
  | .hbm, ⟨40, _⟩ => ⟨S13824x1728, .f32⟩
  | .hbm, ⟨41, _⟩ => ⟨S_, .f32⟩
  | .hbm, ⟨42, _⟩ => ⟨S13824x1728, .f32⟩
  | .hbm, ⟨43, _⟩ => ⟨S13824x1728, .f32⟩
  | .hbm, ⟨44, _⟩ => ⟨S13824x1728, .f32⟩
  | .hbm, ⟨45, _⟩ => ⟨S_, .f32⟩
  | .hbm, ⟨46, _⟩ => ⟨S13824x1728, .f32⟩
  | .hbm, ⟨47, _⟩ => ⟨S13824x1728, .f32⟩
  | .hbm, ⟨48, _⟩ => ⟨S512x128, .f32⟩
  | .hbm, ⟨49, _⟩ => ⟨S13824x128, .f32⟩
  | .hbm, ⟨50, _⟩ => ⟨S1x128, .f32⟩
  | .hbm, ⟨51, _⟩ => ⟨S13824x128, .f32⟩
  | .hbm, ⟨52, _⟩ => ⟨S13824x128, .f32⟩
  | .hbm, ⟨53, _⟩ => ⟨S512x128, .f32⟩
  | .hbm, ⟨54, _⟩ => ⟨S1728x128, .f32⟩
  | .hbm, ⟨55, _⟩ => ⟨S1x128, .f32⟩
  | .hbm, ⟨56, _⟩ => ⟨S1728x128, .f32⟩
  | .hbm, ⟨57, _⟩ => ⟨S1728x128, .f32⟩
  | .hbm, ⟨58, _⟩ => ⟨S128x1728, .f32⟩
  | .hbm, ⟨59, _⟩ => ⟨S13824x1728, .f32⟩
  | .hbm, ⟨60, _⟩ => ⟨S_, .f32⟩
  | .hbm, ⟨61, _⟩ => ⟨S13824x1728, .f32⟩
  | .hbm, ⟨62, _⟩ => ⟨S13824x1728, .f32⟩
  | .hbm, ⟨63, _⟩ => ⟨S13824x1728, .f32⟩
  | .hbm, ⟨64, _⟩ => ⟨S256x1728, .f32⟩
  | .hbm, ⟨65, _⟩ => ⟨S13824x1728, .f32⟩
  | .hbm, ⟨66, _⟩ => ⟨S_, .f32⟩
  | .hbm, ⟨67, _⟩ => ⟨S13824x1728, .f32⟩
  | .hbm, ⟨68, _⟩ => ⟨S13824x1728, .f32⟩
  | .hbm, ⟨69, _⟩ => ⟨S_, .f32⟩
  | .hbm, ⟨70, _⟩ => ⟨S13824, .f32⟩
  | .hbm, ⟨71, _⟩ => ⟨S_, .f32⟩
  | .hbm, ⟨72, _⟩ => ⟨S13824, .f32⟩
  | .hbm, ⟨73, _⟩ => ⟨S13824, .f32⟩
  | .hbm, ⟨74, _⟩ => ⟨S13824x1, .f32⟩
  | .hbm, ⟨75, _⟩ => ⟨S13824x1728, .f32⟩
  | .hbm, ⟨76, _⟩ => ⟨S13824x1728, .f32⟩
  | .hbm, ⟨77, _⟩ => ⟨S13824x1728, .f32⟩
  | .hbm, ⟨78, _⟩ => ⟨S_, .f32⟩
  | .hbm, ⟨79, _⟩ => ⟨S13824, .f32⟩
  | .hbm, ⟨80, _⟩ => ⟨S13824x1, .f32⟩
  | .hbm, ⟨81, _⟩ => ⟨S13824x1728, .f32⟩
  | .hbm, ⟨82, _⟩ => ⟨S13824x1728, .f32⟩
  | .hbm, ⟨83, _⟩ => ⟨S1728x64, .f32⟩
  | .hbm, ⟨84, _⟩ => ⟨S13824x1728, .f32⟩
  | .hbm, ⟨85, _⟩ => ⟨S13824x64, .f32⟩
  | .hbm, ⟨86, _⟩ => ⟨S13824x1728, .f32⟩
  | .hbm, ⟨87, _⟩ => ⟨S_, .f32⟩
  | .hbm, ⟨88, _⟩ => ⟨S13824, .f32⟩
  | .hbm, ⟨89, _⟩ => ⟨S13824x1, .f32⟩
  | .hbm, ⟨90, _⟩ => ⟨S13824x64, .f32⟩
  | .hbm, ⟨91, _⟩ => ⟨S13824x64, .f32⟩
  | .hbm, ⟨92, _⟩ => ⟨S13824x4x4x4, .f32⟩
  | _, _ => ⟨S1728x4x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_1 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_2 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_6 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  transposes_S256x512_S512x256_1_0 : S256x512.Transposes [1, 0] S512x256
  bcast_S256_S1x256_1 : S256.BroadcastsInDim S1x256 (![1] : Fin 1 → Fin S1x256.rank)
  bcast_S1x256_S13824x256_0_1 : S1x256.BroadcastsInDim S13824x256 (![0, 1] : Fin 2 → Fin S13824x256.rank)
  bcast_S1x256_S1728x256_0_1 : S1x256.BroadcastsInDim S1728x256 (![0, 1] : Fin 2 → Fin S1728x256.rank)
  transposes_S128x512_S512x128_1_0 : S128x512.Transposes [1, 0] S512x128
  bcast_S128_S1x128_1 : S128.BroadcastsInDim S1x128 (![1] : Fin 1 → Fin S1x128.rank)
  bcast_S1x128_S13824x128_0_1 : S1x128.BroadcastsInDim S13824x128 (![0, 1] : Fin 2 → Fin S13824x128.rank)
  bcast_S1x128_S1728x128_0_1 : S1x128.BroadcastsInDim S1728x128 (![0, 1] : Fin 2 → Fin S1728x128.rank)
  transposes_S1728x128_S128x1728_1_0 : S1728x128.Transposes [1, 0] S128x1728
  bcast_S_S13824x1728 : S_.BroadcastsInDim S13824x1728 (![] : Fin 0 → Fin S13824x1728.rank)
  transposes_S1728x256_S256x1728_1_0 : S1728x256.Transposes [1, 0] S256x1728
  reducesTo_S13824x1728_S13824_d1 : S13824x1728.ReducesTo [1] S13824
  h_S_ : 0 < S_.numel
  bcast_S_S13824 : S_.BroadcastsInDim S13824 (![] : Fin 0 → Fin S13824.rank)
  bcast_S13824_S13824x1_0 : S13824.BroadcastsInDim S13824x1 (![0] : Fin 1 → Fin S13824x1.rank)
  bcast_S13824x1_S13824x1728_0_1 : S13824x1.BroadcastsInDim S13824x1728 (![0, 1] : Fin 2 → Fin S13824x1728.rank)
  shapeCasts_S1728x4x4x4_S1728x64 : S1728x4x4x4.ShapeCasts S1728x64
  bcast_S13824x1_S13824x64_0_1 : S13824x1.BroadcastsInDim S13824x64 (![0, 1] : Fin 2 → Fin S13824x64.rank)
  shapeCasts_S13824x64_S13824x4x4x4 : S13824x64.ShapeCasts S13824x4x4x4
  dot_S13824x512_S512x256_S13824x256_1_0_0_1_n_n_wf : DotDims.WF S13824x512 S512x256 S13824x256 [1] [0] [0] [1] [] []
  dot_S1728x512_S512x256_S1728x256_1_0_0_1_n_n_wf : DotDims.WF S1728x512 S512x256 S1728x256 [1] [0] [0] [1] [] []
  dot_S13824x512_S512x128_S13824x128_1_0_0_1_n_n_wf : DotDims.WF S13824x512 S512x128 S13824x128 [1] [0] [0] [1] [] []
  dot_S1728x512_S512x128_S1728x128_1_0_0_1_n_n_wf : DotDims.WF S1728x512 S512x128 S1728x128 [1] [0] [0] [1] [] []
  dot_S13824x128_S128x1728_S13824x1728_1_0_0_1_n_n_wf : DotDims.WF S13824x128 S128x1728 S13824x1728 [1] [0] [0] [1] [] []
  dot_S13824x256_S256x1728_S13824x1728_1_0_0_1_n_n_wf : DotDims.WF S13824x256 S256x1728 S13824x1728 [1] [0] [0] [1] [] []
  dot_S13824x1728_S1728x64_S13824x64_1_0_0_1_n_n_wf : DotDims.WF S13824x1728 S1728x64 S13824x64 [1] [0] [0] [1] [] []

variable [Facts₀]

def dot_S13824x512_S512x256_S13824x256_1_0_0_1_n_n : DotDims S13824x512 S512x256 S13824x256 where
  lhsContracting := [1]
  rhsContracting := [0]
  lhsNonContracting := [0]
  rhsNonContracting := [1]
  lhsBatch := []
  rhsBatch := []
  wf := dot_S13824x512_S512x256_S13824x256_1_0_0_1_n_n_wf
def dot_S1728x512_S512x256_S1728x256_1_0_0_1_n_n : DotDims S1728x512 S512x256 S1728x256 where
  lhsContracting := [1]
  rhsContracting := [0]
  lhsNonContracting := [0]
  rhsNonContracting := [1]
  lhsBatch := []
  rhsBatch := []
  wf := dot_S1728x512_S512x256_S1728x256_1_0_0_1_n_n_wf
def dot_S13824x512_S512x128_S13824x128_1_0_0_1_n_n : DotDims S13824x512 S512x128 S13824x128 where
  lhsContracting := [1]
  rhsContracting := [0]
  lhsNonContracting := [0]
  rhsNonContracting := [1]
  lhsBatch := []
  rhsBatch := []
  wf := dot_S13824x512_S512x128_S13824x128_1_0_0_1_n_n_wf
def dot_S1728x512_S512x128_S1728x128_1_0_0_1_n_n : DotDims S1728x512 S512x128 S1728x128 where
  lhsContracting := [1]
  rhsContracting := [0]
  lhsNonContracting := [0]
  rhsNonContracting := [1]
  lhsBatch := []
  rhsBatch := []
  wf := dot_S1728x512_S512x128_S1728x128_1_0_0_1_n_n_wf
def dot_S13824x128_S128x1728_S13824x1728_1_0_0_1_n_n : DotDims S13824x128 S128x1728 S13824x1728 where
  lhsContracting := [1]
  rhsContracting := [0]
  lhsNonContracting := [0]
  rhsNonContracting := [1]
  lhsBatch := []
  rhsBatch := []
  wf := dot_S13824x128_S128x1728_S13824x1728_1_0_0_1_n_n_wf
def dot_S13824x256_S256x1728_S13824x1728_1_0_0_1_n_n : DotDims S13824x256 S256x1728 S13824x1728 where
  lhsContracting := [1]
  rhsContracting := [0]
  lhsNonContracting := [0]
  rhsNonContracting := [1]
  lhsBatch := []
  rhsBatch := []
  wf := dot_S13824x256_S256x1728_S13824x1728_1_0_0_1_n_n_wf
def dot_S13824x1728_S1728x64_S13824x64_1_0_0_1_n_n : DotDims S13824x1728 S1728x64 S13824x64 where
  lhsContracting := [1]
  rhsContracting := [0]
  lhsNonContracting := [0]
  rhsNonContracting := [1]
  lhsBatch := []
  rhsBatch := []
  wf := dot_S13824x1728_S1728x64_S13824x64_1_0_0_1_n_n_wf

class Facts : Prop extends Facts₀ where

variable [Facts]
-- ==== Proof.KernelRun.lean ====
/-
  The idealized kernel program's run with its result named.  The program is seven segments: the host operations before the
  first pallas_call (two concatenations of weights, casts, reshapes of the biases), the domain-projection call, three short
  host stretches (the pooled domains flattened, padded to 128 columns and cast), the attention call over twelve row blocks,
  and the final slice and reshape.  Every weakly fair execution terminates without a fault, leaves the seventeen argument
  arrays as launched, and leaves the result buffer at the contents the segments' fold `Gen.W7` assigns to it.
-/
import proofs.«112807_j4784593568517_2_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v18) = W7 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v18 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c)⟩)

end Cert.KernelIdeal.RunV

end
-- ==== Proof.HostReads.lean ====
/-
  What the buffers hold where each pallas_call finds them, as functions of the launch memory.

  Before the first call the host concatenates the contrast and offset weights (and biases) of each side into one 256-row
  table, casts the weight tables (a change of format: nothing at the extended reals) and reshapes each bias to one row.
  Between the calls it flattens the pooled domains to 1728 x 64, pads them with 64 more columns and casts.  After the
  second call it keeps the first 64 columns and restores the 4 x 4 x 4 blocks.  No host operation writes an argument, and
  the three stretches between the calls write none of the second call's other operands.
-/
import proofs.«112807_j4784593568517_2_alg».proof.Proof.Gen.KernelIdeal.Frame
import Idealize.ShloMosaic.Lib.StableHlo.Run

set_option maxRecDepth 16384

noncomputable section

namespace Cert.KernelIdeal.HostReads

open Idealize.ShloMosaic Idealize.ShloMosaic.TcCoe Idealize.SL.Sem Idealize.ShloMosaic.StableHlo
open Cert.KernelIdeal Cert.KernelIdeal.Gen

variable {F : FTy → Type} [FloatOps F]

/-! ## The stretch before the first call, over any starting contents -/

section Ops0
variable (X : Valuation τ sig (Elt F))

theorem ops0_arg1 : after hostOps0 X (Proc.devRef .tc main_arg1) = X (Proc.devRef .tc main_arg1) := by after_results
theorem ops0_arg2 : after hostOps0 X (Proc.devRef .tc main_arg2) = X (Proc.devRef .tc main_arg2) := by after_results
theorem ops0_arg3 : after hostOps0 X (Proc.devRef .tc main_arg3) = X (Proc.devRef .tc main_arg3) := by after_results
theorem ops0_arg4 : after hostOps0 X (Proc.devRef .tc main_arg4) = X (Proc.devRef .tc main_arg4) := by after_results
theorem ops0_arg0 : after hostOps0 X (Proc.devRef .tc main_arg0) = X (Proc.devRef .tc main_arg0) := by after_results

theorem ops0_v4 : after hostOps0 X (Proc.devRef .tc main_v4)
    = (truncf .bf16 (X (Proc.devRef .tc main_arg5) : (⟨S256x512, .f32⟩ : BufTy).Contents (Elt F)) bitsLt_bf16_f32 : (⟨S256x512, .bf16⟩ : BufTy).Contents (Elt F)) := by
  after_results
theorem ops0_v6 : after hostOps0 X (Proc.devRef .tc main_v6)
    = (truncf .bf16 (X (Proc.devRef .tc main_arg7) : (⟨S256x512, .f32⟩ : BufTy).Contents (Elt F)) bitsLt_bf16_f32 : (⟨S256x512, .bf16⟩ : BufTy).Contents (Elt F)) := by
  after_results
theorem ops0_v5 : after hostOps0 X (Proc.devRef .tc main_v5)
    = (truncf .bf16 (concatenate S256x512 0 [⟨S128x512, (X (Proc.devRef .tc main_arg9) : (⟨S128x512, .f32⟩ : BufTy).Contents (Elt F))⟩, ⟨S128x512, (X (Proc.devRef .tc main_arg13) : (⟨S128x512, .f32⟩ : BufTy).Contents (Elt F))⟩] concatenates_S128x512_S128x512_S256x512_d0 : (⟨S256x512, .f32⟩ : BufTy).Contents (Elt F)) bitsLt_bf16_f32 : (⟨S256x512, .bf16⟩ : BufTy).Contents (Elt F)) := by
  after_results
theorem ops0_v7 : after hostOps0 X (Proc.devRef .tc main_v7)
    = (truncf .bf16 (concatenate S256x512 0 [⟨S128x512, (X (Proc.devRef .tc main_arg11) : (⟨S128x512, .f32⟩ : BufTy).Contents (Elt F))⟩, ⟨S128x512, (X (Proc.devRef .tc main_arg15) : (⟨S128x512, .f32⟩ : BufTy).Contents (Elt F))⟩] concatenates_S128x512_S128x512_S256x512_d0 : (⟨S256x512, .f32⟩ : BufTy).Contents (Elt F)) bitsLt_bf16_f32 : (⟨S256x512, .bf16⟩ : BufTy).Contents (Elt F)) := by
  after_results
theorem ops0_v8 : after hostOps0 X (Proc.devRef .tc main_v8)
    = (shapeCast S1x256 (X (Proc.devRef .tc main_arg6) : (⟨S256, .f32⟩ : BufTy).Contents (Elt F)) shapeCasts_S256_S1x256 : (⟨S1x256, .f32⟩ : BufTy).Contents (Elt F)) := by
  after_results; rfl
theorem ops0_v10 : after hostOps0 X (Proc.devRef .tc main_v10)
    = (shapeCast S1x256 (X (Proc.devRef .tc main_arg8) : (⟨S256, .f32⟩ : BufTy).Contents (Elt F)) shapeCasts_S256_S1x256 : (⟨S1x256, .f32⟩ : BufTy).Contents (Elt F)) := by
  after_results; rfl
theorem ops0_v9 : after hostOps0 X (Proc.devRef .tc main_v9)
    = (shapeCast S1x256 (concatenate S256 0 [⟨S128, (X (Proc.devRef .tc main_arg10) : (⟨S128, .f32⟩ : BufTy).Contents (Elt F))⟩, ⟨S128, (X (Proc.devRef .tc main_arg14) : (⟨S128, .f32⟩ : BufTy).Contents (Elt F))⟩] concatenates_S128_S128_S256_d0 : (⟨S256, .f32⟩ : BufTy).Contents (Elt F)) shapeCasts_S256_S1x256 : (⟨S1x256, .f32⟩ : BufTy).Contents (Elt F)) := by
  after_results; rfl
theorem ops0_v11 : after hostOps0 X (Proc.devRef .tc main_v11)
    = (shapeCast S1x256 (concatenate S256 0 [⟨S128, (X (Proc.devRef .tc main_arg12) : (⟨S128, .f32⟩ : BufTy).Contents (Elt F))⟩, ⟨S128, (X (Proc.devRef .tc main_arg16) : (⟨S128, .f32⟩ : BufTy).Contents (Elt F))⟩] concatenates_S128_S128_S256_d0 : (⟨S256, .f32⟩ : BufTy).Contents (Elt F)) shapeCasts_S256_S1x256 : (⟨S1x256, .f32⟩ : BufTy).Contents (Elt F)) := by
  after_results; rfl

end Ops0

/-! ## The three stretches between the calls, over any starting contents -/

section Ops1
variable (X : Valuation τ sig (Elt F))

/-- The three stretches in order. -/
abbrev mid (X : Valuation τ sig (Elt F)) : Valuation τ sig (Elt F) := after hostOps1_2 (after hostOps1_1 (after hostOps1 X))

theorem mid_arg1 : mid X (Proc.devRef .tc main_arg1) = X (Proc.devRef .tc main_arg1) := by after_results
theorem mid_arg3 : mid X (Proc.devRef .tc main_arg3) = X (Proc.devRef .tc main_arg3) := by after_results
theorem mid_v4 : mid X (Proc.devRef .tc main_v4) = X (Proc.devRef .tc main_v4) := by after_results
theorem mid_v5 : mid X (Proc.devRef .tc main_v5) = X (Proc.devRef .tc main_v5) := by after_results
theorem mid_v8 : mid X (Proc.devRef .tc main_v8) = X (Proc.devRef .tc main_v8) := by after_results
theorem mid_v9 : mid X (Proc.devRef .tc main_v9) = X (Proc.devRef .tc main_v9) := by after_results
theorem mid_v12_0 : mid X (Proc.devRef .tc main_v12_0) = X (Proc.devRef .tc main_v12_0) := by after_results
theorem mid_v12_1 : mid X (Proc.devRef .tc main_v12_1) = X (Proc.devRef .tc main_v12_1) := by after_results

/-- The padded, cast pooled domains. -/
theorem mid_v15 : mid X (Proc.devRef .tc main_v15)
    = (truncf .bf16 (pad S1728x128 ![0, 0] ![0, 64] ![0, 0]
        (shapeCast S1728x64 (X (Proc.devRef .tc main_arg0) : (⟨S1728x4x4x4, .f32⟩ : BufTy).Contents (Elt F)) shapeCasts_S1728x4x4x4_S1728x64 : (⟨S1728x64, .f32⟩ : BufTy).Contents (Elt F))
        (sitofp .f32 (constantI S_ 32 0#32) : (⟨S_, .f32⟩ : BufTy).Contents (Elt F)) pads_S1728x64_S1728x128_000_0640 h_S_ : (⟨S1728x128, .f32⟩ : BufTy).Contents (Elt F)) bitsLt_bf16_f32 : (⟨S1728x128, .bf16⟩ : BufTy).Contents (Elt F)) := by
  after_results
  first | rfl | skip

end Ops1

/-! ## The stretch after the second call -/

theorem tail_v18 (X : Valuation τ sig (Elt F)) : after hostOps2 X (Proc.devRef .tc main_v18)
    = (shapeCast S13824x4x4x4 (extractStridedSlice S13824x64 ![0, 0] (X (Proc.devRef .tc main_v16) : (⟨S13824x128, .f32⟩ : BufTy).Contents (Elt F)) slices_S13824x128_S13824x64_0_0 : (⟨S13824x64, .f32⟩ : BufTy).Contents (Elt F)) shapeCasts_S13824x64_S13824x4x4x4 : (⟨S13824x4x4x4, .f32⟩ : BufTy).Contents (Elt F)) := by
  after_results; rfl

end Cert.KernelIdeal.HostReads

end
-- ==== Proof.Spec.lean ====
/-
  The mathematics both programs compute, stated once over the extended reals with every index a literal `Fin`.

  One output row: from a row `xp + xl` of the range side (512 entries) three affine maps give a 256-vector and two
  128-vectors; each is dotted against every one of the 1728 domain rows, giving three score rows.  The first, scaled by
  1/4, goes through a softmax over the 1728 domain positions (the row maximum subtracted first); the second and third,
  scaled by the constant that stands for 1/sqrt 128, go through tanh (the second is then scaled by the constant 1.8).
  The output entry for a column of the flattened pooled domains is
      sum_k w k * contrast k * column k   +   sum_k w k * offset k.
  The domain rows themselves are affine images of `dp + dl`.
-/
import Idealize.ShloMosaic.PureOps.Ideal
import Idealize.ShloMosaic.Lib.ValueIdx

noncomputable section

namespace Cert.Attn

open Idealize.ShloMosaic Idealize.ShloMosaic.ValueIdx

/-- The affine image of a 512-vector: `(sum_e x e * W a e) + b a`. -/
def lin {A : Nat} (x : Fin 512 → EReal) (W : Fin A → Fin 512 → EReal) (b : Fin A → EReal) (a : Fin A) : EReal :=
  (∑ e : Fin 512, x e * W a e) + b a

/-- A vector dotted against row `k` of a table of 1728 rows. -/
def dots {K : Nat} (p : Fin K → EReal) (Q : Fin 1728 → Fin K → EReal) (k : Fin 1728) : EReal :=
  ∑ a : Fin K, p a * Q k a

/-- The softmax temperature factor 1/4, the stand-in for 1/sqrt 128, the contrast bound 1.8, and minus infinity, each as
    the binary word both programs carry. -/
def cQuarter : EReal := Ideal.ofBits .f32 0x3E800000#32
def cInvSqrt : EReal := Ideal.ofBits .f32 0x3DB504F3#32
def cContrast : EReal := Ideal.ofBits .f32 0x3FE66666#32
def cNegInf : EReal := Ideal.ofBits .f32 0xFF800000#32

/-- The largest of 1728 scores (from minus infinity). -/
def rowMax (l : Fin 1728 → EReal) : EReal := (Finset.univ : Finset (Fin 1728)).fold max cNegInf l

/-- `exp (l k - max l)`. -/
def shiftedExp (l : Fin 1728 → EReal) (k : Fin 1728) : EReal := Ideal.exp (l k - rowMax l)

/-- The softmax weight of position `k`. -/
def softmax (l : Fin 1728 → EReal) (k : Fin 1728) : EReal := Ideal.div (shiftedExp l k) (∑ k' : Fin 1728, shiftedExp l k')

/-- The range row the three maps are applied to. -/
def base (xp xl : Fin 512 → EReal) (e : Fin 512) : EReal := xp e + xl e

/-- The attention weights of one range row over the 1728 domain positions. -/
def weights (xp xl : Fin 512 → EReal) (Wp : Fin 256 → Fin 512 → EReal) (bp : Fin 256 → EReal)
    (Dp : Fin 1728 → Fin 256 → EReal) : Fin 1728 → EReal :=
  softmax fun k => dots (lin (base xp xl) Wp bp) Dp k * cQuarter

/-- tanh of the scaled score of a 128-wide head. -/
def head (xp xl : Fin 512 → EReal) (W : Fin 128 → Fin 512 → EReal) (b : Fin 128 → EReal)
    (D : Fin 1728 → Fin 128 → EReal) (k : Fin 1728) : EReal :=
  Ideal.tanh (dots (lin (base xp xl) W b) D k * cInvSqrt)

/-- One output entry: the weighted, contrast-scaled column plus the weighted offset. -/
def rowOut (xp xl : Fin 512 → EReal) (Wp : Fin 256 → Fin 512 → EReal) (bp : Fin 256 → EReal)
    (Wc : Fin 128 → Fin 512 → EReal) (bc : Fin 128 → EReal) (Wo : Fin 128 → Fin 512 → EReal) (bo : Fin 128 → EReal)
    (Dp : Fin 1728 → Fin 256 → EReal) (Dc Do : Fin 1728 → Fin 128 → EReal) (col : Fin 1728 → EReal) : EReal :=
  (∑ k : Fin 1728, (weights xp xl Wp bp Dp k * (head xp xl Wc bc Dc k * cContrast)) * col k)
    + ∑ k : Fin 1728, weights xp xl Wp bp Dp k * head xp xl Wo bo Do k

/-- Row `h` of the first and of the second half of a 256-row table. -/
def lo (h : Fin 128) : Fin 256 := ⟨h.val, by omega⟩
def hi (h : Fin 128) : Fin 256 := ⟨128 + h.val, by omega⟩

/-- A domain row's affine image under `(W, b)`. -/
def domLin {A : Nat} (dp dl : (⟨2, ![1728, 512]⟩ : Shape).Idx → EReal) (W : (⟨2, ![A, 512]⟩ : Shape).Idx → EReal)
    (b : (⟨1, ![A]⟩ : Shape).Idx → EReal) (k : Fin 1728) (a : Fin A) : EReal :=
  lin (fun e => dp (ix2 k e) + dl (ix2 k e)) (fun a e => W (ix2 a e)) (fun a => b (ix1 a)) a

/-- The whole result, entry `(r, j)` of the 13824 x 64 array, from the argument arrays (the pooled domains already
    flattened to 1728 x 64). -/
def result (pdf : (⟨2, ![1728, 64]⟩ : Shape).Idx → EReal)
    (rp : (⟨2, ![13824, 512]⟩ : Shape).Idx → EReal) (dp : (⟨2, ![1728, 512]⟩ : Shape).Idx → EReal)
    (rl : (⟨2, ![13824, 512]⟩ : Shape).Idx → EReal) (dl : (⟨2, ![1728, 512]⟩ : Shape).Idx → EReal)
    (Wrp : (⟨2, ![256, 512]⟩ : Shape).Idx → EReal) (brp : (⟨1, ![256]⟩ : Shape).Idx → EReal)
    (Wdp : (⟨2, ![256, 512]⟩ : Shape).Idx → EReal) (bdp : (⟨1, ![256]⟩ : Shape).Idx → EReal)
    (Wrc : (⟨2, ![128, 512]⟩ : Shape).Idx → EReal) (brc : (⟨1, ![128]⟩ : Shape).Idx → EReal)
    (Wdc : (⟨2, ![128, 512]⟩ : Shape).Idx → EReal) (bdc : (⟨1, ![128]⟩ : Shape).Idx → EReal)
    (Wro : (⟨2, ![128, 512]⟩ : Shape).Idx → EReal) (bro : (⟨1, ![128]⟩ : Shape).Idx → EReal)
    (Wdo : (⟨2, ![128, 512]⟩ : Shape).Idx → EReal) (bdo : (⟨1, ![128]⟩ : Shape).Idx → EReal)
    (r : Fin 13824) (j : Fin 64) : EReal :=
  rowOut (fun e => rp (ix2 r e)) (fun e => rl (ix2 r e)) (fun a e => Wrp (ix2 a e)) (fun a => brp (ix1 a))
    (fun h e => Wrc (ix2 h e)) (fun h => brc (ix1 h)) (fun h e => Wro (ix2 h e)) (fun h => bro (ix1 h))
    (domLin dp dl Wdp bdp) (domLin dp dl Wdc bdc) (domLin dp dl Wdo bdo) (fun k => pdf (ix2 k j))

end Cert.Attn

end
-- ==== Proof.Region0.lean ====
/-
  The first pallas_call (one grid point, every window one whole-array block), read as a value: each of its two output
  arrays ends holding, at (k, a), the affine image `(sum_e (dp k e + dl k e) * W a e) + b a` of the domain row k — the first
  under the 256-row table and bias it is given as operands 2 and 3, the second under operands 4 and 5.  Stated at any
  contents `V` the call is entered from, given what the body stores at an index.
-/
import proofs.«112807_j4784593568517_2_alg».proof.Proof.Gen.KernelIdeal.Frame
import proofs.«112807_j4784593568517_2_alg».proof.Proof.Spec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.Attn

/-- What the body of the first call stores into its first output, read at an index. -/
def Stored6 : Prop :=
  ∀ (x0 x1 : Vec Ideal S1728x512 .f32) (x2 : Vec Ideal S256x512 .bf16) (x3 : Vec Ideal S1x256 .f32)
    (x4 : Vec Ideal S256x512 .bf16) (x5 : Vec Ideal S1x256 .f32) (k : Fin 1728) (a : Fin 256),
    out0_6 (F := Ideal) x0 x1 x2 x3 x4 x5 (ix2 k a)
      = lin (fun e => x0 (ix2 k e) + x1 (ix2 k e)) (fun a e => x2 (ix2 a e)) (fun a => x3 (ix2 (0 : Fin 1) a)) a

/-- What it stores into its second output. -/
def Stored7 : Prop :=
  ∀ (x0 x1 : Vec Ideal S1728x512 .f32) (x2 : Vec Ideal S256x512 .bf16) (x3 : Vec Ideal S1x256 .f32)
    (x4 : Vec Ideal S256x512 .bf16) (x5 : Vec Ideal S1x256 .f32) (k : Fin 1728) (a : Fin 256),
    out0_7 (F := Ideal) x0 x1 x2 x3 x4 x5 (ix2 k a)
      = lin (fun e => x0 (ix2 k e) + x1 (ix2 k e)) (fun a e => x4 (ix2 a e)) (fun a => x5 (ix2 (0 : Fin 1) a)) a

variable (V : (c : Dev nD) → (b : Ref sig .tc) → Buf (Elt Ideal) ((c : Thread nD τ).loc b))

/-- Every window's one block sits at block index (0, 0). -/
theorem index_zero : ∀ t : Fin cfg0.N, (∀ a : Fin 2, win0_0.index t a = 0) ∧ (∀ a : Fin 2, win0_1.index t a = 0)
    ∧ (∀ a : Fin 2, win0_2.index t a = 0) ∧ (∀ a : Fin 2, win0_3.index t a = 0) ∧ (∀ a : Fin 2, win0_4.index t a = 0)
    ∧ (∀ a : Fin 2, win0_5.index t a = 0) ∧ (∀ a : Fin 2, win0_6.index t a = 0) ∧ (∀ a : Fin 2, win0_7.index t a = 0) :=
  (by decide +kernel : ∀ t : Fin grid0.N, _)

/-- So a block's element sits at its own index in the array. -/
theorem emb_0 (t : Fin cfg0.N) (y : S1728x512.Idx) : ((cfg0.win 0).blk t).view.emb y = y := by
  funext a; apply Fin.ext
  have h := (index_zero t).1
  match a with
  | ⟨0, _⟩ => show win0_0.index t (0 : Fin 2) * 1728 + 1 * (y 0).val = (y 0).val; rw [h 0]; omega
  | ⟨1, _⟩ => show win0_0.index t (1 : Fin 2) * 512 + 1 * (y 1).val = (y 1).val; rw [h 1]; omega
theorem emb_1 (t : Fin cfg0.N) (y : S1728x512.Idx) : ((cfg0.win 1).blk t).view.emb y = y := by
  funext a; apply Fin.ext
  have h := (index_zero t).2.1
  match a with
  | ⟨0, _⟩ => show win0_1.index t (0 : Fin 2) * 1728 + 1 * (y 0).val = (y 0).val; rw [h 0]; omega
  | ⟨1, _⟩ => show win0_1.index t (1 : Fin 2) * 512 + 1 * (y 1).val = (y 1).val; rw [h 1]; omega
theorem emb_2 (t : Fin cfg0.N) (y : S256x512.Idx) : ((cfg0.win 2).blk t).view.emb y = y := by
  funext a; apply Fin.ext
  have h := (index_zero t).2.2.1
  match a with
  | ⟨0, _⟩ => show win0_2.index t (0 : Fin 2) * 256 + 1 * (y 0).val = (y 0).val; rw [h 0]; omega
  | ⟨1, _⟩ => show win0_2.index t (1 : Fin 2) * 512 + 1 * (y 1).val = (y 1).val; rw [h 1]; omega
theorem emb_3 (t : Fin cfg0.N) (y : S1x256.Idx) : ((cfg0.win 3).blk t).view.emb y = y := by
  funext a; apply Fin.ext
  have h := (index_zero t).2.2.2.1
  match a with
  | ⟨0, _⟩ => show win0_3.index t (0 : Fin 2) * 1 + 1 * (y 0).val = (y 0).val; rw [h 0]; omega
  | ⟨1, _⟩ => show win0_3.index t (1 : Fin 2) * 256 + 1 * (y 1).val = (y 1).val; rw [h 1]; omega
theorem emb_4 (t : Fin cfg0.N) (y : S256x512.Idx) : ((cfg0.win 4).blk t).view.emb y = y := by
  funext a; apply Fin.ext
  have h := (index_zero t).2.2.2.2.1
  match a with
  | ⟨0, _⟩ => show win0_4.index t (0 : Fin 2) * 256 + 1 * (y 0).val = (y 0).val; rw [h 0]; omega
  | ⟨1, _⟩ => show win0_4.index t (1 : Fin 2) * 512 + 1 * (y 1).val = (y 1).val; rw [h 1]; omega
theorem emb_5 (t : Fin cfg0.N) (y : S1x256.Idx) : ((cfg0.win 5).blk t).view.emb y = y := by
  funext a; apply Fin.ext
  have h := (index_zero t).2.2.2.2.2.1
  match a with
  | ⟨0, _⟩ => show win0_5.index t (0 : Fin 2) * 1 + 1 * (y 0).val = (y 0).val; rw [h 0]; omega
  | ⟨1, _⟩ => show win0_5.index t (1 : Fin 2) * 256 + 1 * (y 1).val = (y 1).val; rw [h 1]; omega
theorem emb_6 (t : Fin cfg0.N) (y : S1728x256.Idx) : ((cfg0.win 6).blk t).view.emb y = y := by
  funext a; apply Fin.ext
  have h := (index_zero t).2.2.2.2.2.2.1
  match a with
  | ⟨0, _⟩ => show win0_6.index t (0 : Fin 2) * 1728 + 1 * (y 0).val = (y 0).val; rw [h 0]; omega
  | ⟨1, _⟩ => show win0_6.index t (1 : Fin 2) * 256 + 1 * (y 1).val = (y 1).val; rw [h 1]; omega
theorem emb_7 (t : Fin cfg0.N) (y : S1728x256.Idx) : ((cfg0.win 7).blk t).view.emb y = y := by
  funext a; apply Fin.ext
  have h := (index_zero t).2.2.2.2.2.2.2
  match a with
  | ⟨0, _⟩ => show win0_7.index t (0 : Fin 2) * 1728 + 1 * (y 0).val = (y 0).val; rw [h 0]; omega
  | ⟨1, _⟩ => show win0_7.index t (1 : Fin 2) * 256 + 1 * (y 1).val = (y 1).val; rw [h 1]; omega

/-- Each input block is its whole array as the call finds it. -/
theorem blk_0 (c : Dev nD) (t : Fin cfg0.N) (y : S1728x512.Idx) :
    (iblk0 V c 0 t : Vec Ideal S1728x512 .f32) y = (V c main_arg2 : S1728x512.Idx → EReal) y := by
  show (V c main_arg2 : S1728x512.Idx → EReal) (((cfg0.win 0).blk t).view.emb y) = _
  rw [emb_0]
theorem blk_1 (c : Dev nD) (t : Fin cfg0.N) (y : S1728x512.Idx) :
    (iblk0 V c 1 t : Vec Ideal S1728x512 .f32) y = (V c main_arg4 : S1728x512.Idx → EReal) y := by
  show (V c main_arg4 : S1728x512.Idx → EReal) (((cfg0.win 1).blk t).view.emb y) = _
  rw [emb_1]
theorem blk_2 (c : Dev nD) (t : Fin cfg0.N) (y : S256x512.Idx) :
    (iblk0 V c 2 t : Vec Ideal S256x512 .bf16) y = (V c main_v6 : S256x512.Idx → EReal) y := by
  show (V c main_v6 : S256x512.Idx → EReal) (((cfg0.win 2).blk t).view.emb y) = _
  rw [emb_2]
theorem blk_3 (c : Dev nD) (t : Fin cfg0.N) (y : S1x256.Idx) :
    (iblk0 V c 3 t : Vec Ideal S1x256 .f32) y = (V c main_v10 : S1x256.Idx → EReal) y := by
  show (V c main_v10 : S1x256.Idx → EReal) (((cfg0.win 3).blk t).view.emb y) = _
  rw [emb_3]
theorem blk_4 (c : Dev nD) (t : Fin cfg0.N) (y : S256x512.Idx) :
    (iblk0 V c 4 t : Vec Ideal S256x512 .bf16) y = (V c main_v7 : S256x512.Idx → EReal) y := by
  show (V c main_v7 : S256x512.Idx → EReal) (((cfg0.win 4).blk t).view.emb y) = _
  rw [emb_4]
theorem blk_5 (c : Dev nD) (t : Fin cfg0.N) (y : S1x256.Idx) :
    (iblk0 V c 5 t : Vec Ideal S1x256 .f32) y = (V c main_v11 : S1x256.Idx → EReal) y := by
  show (V c main_v11 : S1x256.Idx → EReal) (((cfg0.win 5).blk t).view.emb y) = _
  rw [emb_5]

/-- The affine image of row k of `P + L` under a table and a one-row bias. -/
def proj (P L : S1728x512.Idx → EReal) (W : S256x512.Idx → EReal) (b : S1x256.Idx → EReal) (k : Fin 1728) (a : Fin 256) : EReal :=
  lin (fun e => P (ix2 k e) + L (ix2 k e)) (fun a e => W (ix2 a e)) (fun a => b (ix2 (0 : Fin 1) a)) a

/-- The first output array's final contents. -/
def arr6 (c : Dev nD) : S1728x256.Idx → EReal := fun i =>
  proj (V c main_arg2) (V c main_arg4) (V c main_v6) (V c main_v10) ⟨(i 0).val, idx2_lt0 i⟩ ⟨(i 1).val, idx2_lt1 i⟩
/-- The second's. -/
def arr7 (c : Dev nD) : S1728x256.Idx → EReal := fun i =>
  proj (V c main_arg2) (V c main_arg4) (V c main_v7) (V c main_v11) ⟨(i 0).val, idx2_lt0 i⟩ ⟨(i 1).val, idx2_lt1 i⟩

theorem flushed_6 (h6 : Stored6) (c : Dev nD) (t : Fin cfg0.N) :
    (dat0 V c).flushed 6 t = ((cfg0.win 6).blk t).view.read (Elt Ideal) (arr6 V c) := by
  show (cfg0.win 6).cut (grid0.coords t) ((dat0 V c).after 6 t) = _
  rw [after0_6]
  funext (y : S1728x256.Idx)
  show out0_6 (F := Ideal) (iblk0 V c 0 t) (iblk0 V c 1 t) (iblk0 V c 2 t) (iblk0 V c 3 t) (iblk0 V c 4 t) (iblk0 V c 5 t) y
    = arr6 V c (((cfg0.win 6).blk t).view.emb y)
  rw [emb_6]
  obtain ⟨k, a, rfl⟩ : ∃ (k : Fin 1728) (a : Fin 256), y = ix2 k a := ⟨y 0, y 1, eq_ix2 y⟩
  rw [h6]
  unfold arr6 proj
  simp only [blk_0, blk_1, blk_2, blk_3]

theorem flushed_7 (h7 : Stored7) (c : Dev nD) (t : Fin cfg0.N) :
    (dat0 V c).flushed 7 t = ((cfg0.win 7).blk t).view.read (Elt Ideal) (arr7 V c) := by
  show (cfg0.win 7).cut (grid0.coords t) ((dat0 V c).after 7 t) = _
  rw [after0_7]
  funext (y : S1728x256.Idx)
  show out0_7 (F := Ideal) (iblk0 V c 0 t) (iblk0 V c 1 t) (iblk0 V c 2 t) (iblk0 V c 3 t) (iblk0 V c 4 t) (iblk0 V c 5 t) y
    = arr7 V c (((cfg0.win 7).blk t).view.emb y)
  rw [emb_7]
  obtain ⟨k, a, rfl⟩ : ∃ (k : Fin 1728) (a : Fin 256), y = ix2 k a := ⟨y 0, y 1, eq_ix2 y⟩
  rw [h7]
  unfold arr7 proj
  simp only [blk_0, blk_1, blk_4, blk_5]

/-- The one block covers the array. -/
theorem cover_6 (i : S1728x256.Idx) : ∃ t : Fin cfg0.N, (cfg0.win 6).flush t = true ∧ i ∈ ((cfg0.win 6).blk t).view.set := by
  refine ⟨t0_0, flush0_6 t0_0, ?_⟩
  show i ∈ ((View.whole main_v12_0).slice (win0_6.rect t0_0)).set
  rw [View.set_slice_whole, Rect.mem_set_unit]
  have h := (index_zero t0_0).2.2.2.2.2.2.1
  have h0 : (i 0).val < 1728 := (i 0).isLt
  have h1 : (i 1).val < 256 := (i 1).isLt
  intro a
  match a with
  | ⟨0, _⟩ => show win0_6.index t0_0 (0 : Fin 2) * 1728 ≤ (i 0).val ∧ (i 0).val < win0_6.index t0_0 (0 : Fin 2) * 1728 + 1728; rw [h 0]; omega
  | ⟨1, _⟩ => show win0_6.index t0_0 (1 : Fin 2) * 256 ≤ (i 1).val ∧ (i 1).val < win0_6.index t0_0 (1 : Fin 2) * 256 + 256; rw [h 1]; omega

theorem cover_7 (i : S1728x256.Idx) : ∃ t : Fin cfg0.N, (cfg0.win 7).flush t = true ∧ i ∈ ((cfg0.win 7).blk t).view.set := by
  refine ⟨t0_0, flush0_7 t0_0, ?_⟩
  show i ∈ ((View.whole main_v12_1).slice (win0_7.rect t0_0)).set
  rw [View.set_slice_whole, Rect.mem_set_unit]
  have h := (index_zero t0_0).2.2.2.2.2.2.2
  have h0 : (i 0).val < 1728 := (i 0).isLt
  have h1 : (i 1).val < 256 := (i 1).isLt
  intro a
  match a with
  | ⟨0, _⟩ => show win0_7.index t0_0 (0 : Fin 2) * 1728 ≤ (i 0).val ∧ (i 0).val < win0_7.index t0_0 (0 : Fin 2) * 1728 + 1728; rw [h 0]; omega
  | ⟨1, _⟩ => show win0_7.index t0_0 (1 : Fin 2) * 256 ≤ (i 1).val ∧ (i 1).val < win0_7.index t0_0 (1 : Fin 2) * 256 + 256; rw [h 1]; omega

/-- The two output arrays after the call. -/
theorem final_6 (h6 : Stored6) (c : Dev nD) : (dat0 V c).arrAt 6 cfg0.N = arr6 V c :=
  (dat0 V c).arrAt_eq_of_cover 6 (arr6 V c) (fun t _ => flushed_6 V h6 c t) cover_6
theorem final_7 (h7 : Stored7) (c : Dev nD) : (dat0 V c).arrAt 7 cfg0.N = arr7 V c :=
  (dat0 V c).arrAt_eq_of_cover 7 (arr7 V c) (fun t _ => flushed_7 V h7 c t) cover_7

end Cert.KernelIdeal.Region0

end
-- ==== Proof.Region1.lean ====
/-
  The second pallas_call (twelve grid points; the two range-side operands and the output move in blocks of 1152 rows,
  the other seven operands are one whole-array block each), read as a value: row r of the output array ends holding, in
  column q, the attention output of range row r — the weighted, contrast-scaled column q of the padded pooled domains plus
  the weighted offset — computed from the operands as the call finds them.  Stated at any contents `V` the call is
  entered from, given what the body stores at an index.
-/
import proofs.«112807_j4784593568517_2_alg».proof.Proof.Gen.KernelIdeal.Frame
import proofs.«112807_j4784593568517_2_alg».proof.Proof.Spec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.Attn

/-- What the body of the second call stores into its output block, read at an index: one attention row. -/
def Stored9 : Prop :=
  ∀ (x0 x1 : Vec Ideal S1152x512 .f32) (x2 : Vec Ideal S256x512 .bf16) (x3 : Vec Ideal S1x256 .f32)
    (x4 : Vec Ideal S256x512 .bf16) (x5 : Vec Ideal S1x256 .f32) (x6 x7 : Vec Ideal S1728x256 .f32)
    (x8 : Vec Ideal S1728x128 .bf16) (p : Fin 1152) (q : Fin 128),
    out1_9 (F := Ideal) x0 x1 x2 x3 x4 x5 x6 x7 x8 (ix2 p q)
      = rowOut (fun e => x0 (ix2 p e)) (fun e => x1 (ix2 p e)) (fun a e => x2 (ix2 a e)) (fun a => x3 (ix2 (0 : Fin 1) a))
          (fun h e => x4 (ix2 (lo h) e)) (fun h => x5 (ix2 (0 : Fin 1) (lo h)))
          (fun h e => x4 (ix2 (hi h) e)) (fun h => x5 (ix2 (0 : Fin 1) (hi h)))
          (fun k a => x6 (ix2 k a)) (fun k h => x7 (ix2 k (lo h))) (fun k h => x7 (ix2 k (hi h)))
          (fun k => x8 (ix2 k q))

variable (V : (c : Dev nD) → (b : Ref sig .tc) → Buf (Elt Ideal) ((c : Thread nD τ).loc b))

/-- The printed index maps over the twelve points: the row-blocked windows sit at block (t, 0), the others at (0, 0). -/
theorem index_facts : ∀ t : Fin cfg1.N, (win1_0.index t (0 : Fin 2) = t.val ∧ win1_0.index t (1 : Fin 2) = 0)
    ∧ (win1_1.index t (0 : Fin 2) = t.val ∧ win1_1.index t (1 : Fin 2) = 0)
    ∧ (∀ a : Fin 2, win1_2.index t a = 0) ∧ (∀ a : Fin 2, win1_3.index t a = 0) ∧ (∀ a : Fin 2, win1_4.index t a = 0)
    ∧ (∀ a : Fin 2, win1_5.index t a = 0) ∧ (∀ a : Fin 2, win1_6.index t a = 0) ∧ (∀ a : Fin 2, win1_7.index t a = 0)
    ∧ (∀ a : Fin 2, win1_8.index t a = 0) ∧ (win1_9.index t (0 : Fin 2) = t.val ∧ win1_9.index t (1 : Fin 2) = 0) :=
  (by decide +kernel : ∀ t : Fin grid1.N, _)

/-- Row p of block t is row 1152 t + p of the array. -/
def row (t : Fin cfg1.N) (p : Fin 1152) : Fin 13824 :=
  ⟨t.val * 1152 + p.val, by have h := t.isLt; have hN : cfg1.N = 12 := N_1; have hp := p.isLt; omega⟩

theorem emb_0 (t : Fin cfg1.N) (p : Fin 1152) (e : Fin 512) :
    ((cfg1.win 0).blk t).view.emb (ix2 p e : S1152x512.Idx) = (ix2 (row t p) e : S13824x512.Idx) := by
  funext a; apply Fin.ext
  have h := (index_facts t).1
  match a with
  | ⟨0, _⟩ => show win1_0.index t (0 : Fin 2) * 1152 + 1 * p.val = t.val * 1152 + p.val; rw [h.1]; omega
  | ⟨1, _⟩ => show win1_0.index t (1 : Fin 2) * 512 + 1 * e.val = e.val; rw [h.2]; omega
theorem emb_1 (t : Fin cfg1.N) (p : Fin 1152) (e : Fin 512) :
    ((cfg1.win 1).blk t).view.emb (ix2 p e : S1152x512.Idx) = (ix2 (row t p) e : S13824x512.Idx) := by
  funext a; apply Fin.ext
  have h := (index_facts t).2.1
  match a with
  | ⟨0, _⟩ => show win1_1.index t (0 : Fin 2) * 1152 + 1 * p.val = t.val * 1152 + p.val; rw [h.1]; omega
  | ⟨1, _⟩ => show win1_1.index t (1 : Fin 2) * 512 + 1 * e.val = e.val; rw [h.2]; omega
theorem emb_9 (t : Fin cfg1.N) (p : Fin 1152) (q : Fin 128) :
    ((cfg1.win 9).blk t).view.emb (ix2 p q : S1152x128.Idx) = (ix2 (row t p) q : S13824x128.Idx) := by
  funext a; apply Fin.ext
  have h := (index_facts t).2.2.2.2.2.2.2.2.2
  match a with
  | ⟨0, _⟩ => show win1_9.index t (0 : Fin 2) * 1152 + 1 * p.val = t.val * 1152 + p.val; rw [h.1]; omega
  | ⟨1, _⟩ => show win1_9.index t (1 : Fin 2) * 128 + 1 * q.val = q.val; rw [h.2]; omega
theorem emb_2 (t : Fin cfg1.N) (y : S256x512.Idx) : ((cfg1.win 2).blk t).view.emb y = y := by
  funext a; apply Fin.ext
  have h := (index_facts t).2.2.1
  match a with
  | ⟨0, _⟩ => show win1_2.index t (0 : Fin 2) * 256 + 1 * (y 0).val = (y 0).val; rw [h 0]; omega
  | ⟨1, _⟩ => show win1_2.index t (1 : Fin 2) * 512 + 1 * (y 1).val = (y 1).val; rw [h 1]; omega
theorem emb_3 (t : Fin cfg1.N) (y : S1x256.Idx) : ((cfg1.win 3).blk t).view.emb y = y := by
  funext a; apply Fin.ext
  have h := (index_facts t).2.2.2.1
  match a with
  | ⟨0, _⟩ => show win1_3.index t (0 : Fin 2) * 1 + 1 * (y 0).val = (y 0).val; rw [h 0]; omega
  | ⟨1, _⟩ => show win1_3.index t (1 : Fin 2) * 256 + 1 * (y 1).val = (y 1).val; rw [h 1]; omega
theorem emb_4 (t : Fin cfg1.N) (y : S256x512.Idx) : ((cfg1.win 4).blk t).view.emb y = y := by
  funext a; apply Fin.ext
  have h := (index_facts t).2.2.2.2.1
  match a with
  | ⟨0, _⟩ => show win1_4.index t (0 : Fin 2) * 256 + 1 * (y 0).val = (y 0).val; rw [h 0]; omega
  | ⟨1, _⟩ => show win1_4.index t (1 : Fin 2) * 512 + 1 * (y 1).val = (y 1).val; rw [h 1]; omega
theorem emb_5 (t : Fin cfg1.N) (y : S1x256.Idx) : ((cfg1.win 5).blk t).view.emb y = y := by
  funext a; apply Fin.ext
  have h := (index_facts t).2.2.2.2.2.1
  match a with
  | ⟨0, _⟩ => show win1_5.index t (0 : Fin 2) * 1 + 1 * (y 0).val = (y 0).val; rw [h 0]; omega
  | ⟨1, _⟩ => show win1_5.index t (1 : Fin 2) * 256 + 1 * (y 1).val = (y 1).val; rw [h 1]; omega
theorem emb_6 (t : Fin cfg1.N) (y : S1728x256.Idx) : ((cfg1.win 6).blk t).view.emb y = y := by
  funext a; apply Fin.ext
  have h := (index_facts t).2.2.2.2.2.2.1
  match a with
  | ⟨0, _⟩ => show win1_6.index t (0 : Fin 2) * 1728 + 1 * (y 0).val = (y 0).val; rw [h 0]; omega
  | ⟨1, _⟩ => show win1_6.index t (1 : Fin 2) * 256 + 1 * (y 1).val = (y 1).val; rw [h 1]; omega
theorem emb_7 (t : Fin cfg1.N) (y : S1728x256.Idx) : ((cfg1.win 7).blk t).view.emb y = y := by
  funext a; apply Fin.ext
  have h := (index_facts t).2.2.2.2.2.2.2.1
  match a with
  | ⟨0, _⟩ => show win1_7.index t (0 : Fin 2) * 1728 + 1 * (y 0).val = (y 0).val; rw [h 0]; omega
  | ⟨1, _⟩ => show win1_7.index t (1 : Fin 2) * 256 + 1 * (y 1).val = (y 1).val; rw [h 1]; omega
theorem emb_8 (t : Fin cfg1.N) (y : S1728x128.Idx) : ((cfg1.win 8).blk t).view.emb y = y := by
  funext a; apply Fin.ext
  have h := (index_facts t).2.2.2.2.2.2.2.2.1
  match a with
  | ⟨0, _⟩ => show win1_8.index t (0 : Fin 2) * 1728 + 1 * (y 0).val = (y 0).val; rw [h 0]; omega
  | ⟨1, _⟩ => show win1_8.index t (1 : Fin 2) * 128 + 1 * (y 1).val = (y 1).val; rw [h 1]; omega

/-- The two row-blocked inputs read through their block. -/
theorem blk_0 (c : Dev nD) (t : Fin cfg1.N) (p : Fin 1152) (e : Fin 512) :
    (iblk1 V c 0 t : Vec Ideal S1152x512 .f32) (ix2 p e) = (V c main_arg1 : S13824x512.Idx → EReal) (ix2 (row t p) e) := by
  show (V c main_arg1 : S13824x512.Idx → EReal) (((cfg1.win 0).blk t).view.emb (ix2 p e : S1152x512.Idx)) = _
  rw [emb_0]
theorem blk_1 (c : Dev nD) (t : Fin cfg1.N) (p : Fin 1152) (e : Fin 512) :
    (iblk1 V c 1 t : Vec Ideal S1152x512 .f32) (ix2 p e) = (V c main_arg3 : S13824x512.Idx → EReal) (ix2 (row t p) e) := by
  show (V c main_arg3 : S13824x512.Idx → EReal) (((cfg1.win 1).blk t).view.emb (ix2 p e : S1152x512.Idx)) = _
  rw [emb_1]
/-- Every other input block is its whole array. -/
theorem blk_2 (c : Dev nD) (t : Fin cfg1.N) (y : S256x512.Idx) :
    (iblk1 V c 2 t : Vec Ideal S256x512 .bf16) y = (V c main_v4 : S256x512.Idx → EReal) y := by
  show (V c main_v4 : S256x512.Idx → EReal) (((cfg1.win 2).blk t).view.emb y) = _
  rw [emb_2]
theorem blk_3 (c : Dev nD) (t : Fin cfg1.N) (y : S1x256.Idx) :
    (iblk1 V c 3 t : Vec Ideal S1x256 .f32) y = (V c main_v8 : S1x256.Idx → EReal) y := by
  show (V c main_v8 : S1x256.Idx → EReal) (((cfg1.win 3).blk t).view.emb y) = _
  rw [emb_3]
theorem blk_4 (c : Dev nD) (t : Fin cfg1.N) (y : S256x512.Idx) :
    (iblk1 V c 4 t : Vec Ideal S256x512 .bf16) y = (V c main_v5 : S256x512.Idx → EReal) y := by
  show (V c main_v5 : S256x512.Idx → EReal) (((cfg1.win 4).blk t).view.emb y) = _
  rw [emb_4]
theorem blk_5 (c : Dev nD) (t : Fin cfg1.N) (y : S1x256.Idx) :
    (iblk1 V c 5 t : Vec Ideal S1x256 .f32) y = (V c main_v9 : S1x256.Idx → EReal) y := by
  show (V c main_v9 : S1x256.Idx → EReal) (((cfg1.win 5).blk t).view.emb y) = _
  rw [emb_5]
theorem blk_6 (c : Dev nD) (t : Fin cfg1.N) (y : S1728x256.Idx) :
    (iblk1 V c 6 t : Vec Ideal S1728x256 .f32) y = (V c main_v12_0 : S1728x256.Idx → EReal) y := by
  show (V c main_v12_0 : S1728x256.Idx → EReal) (((cfg1.win 6).blk t).view.emb y) = _
  rw [emb_6]
theorem blk_7 (c : Dev nD) (t : Fin cfg1.N) (y : S1728x256.Idx) :
    (iblk1 V c 7 t : Vec Ideal S1728x256 .f32) y = (V c main_v12_1 : S1728x256.Idx → EReal) y := by
  show (V c main_v12_1 : S1728x256.Idx → EReal) (((cfg1.win 7).blk t).view.emb y) = _
  rw [emb_7]
theorem blk_8 (c : Dev nD) (t : Fin cfg1.N) (y : S1728x128.Idx) :
    (iblk1 V c 8 t : Vec Ideal S1728x128 .bf16) y = (V c main_v15 : S1728x128.Idx → EReal) y := by
  show (V c main_v15 : S1728x128.Idx → EReal) (((cfg1.win 8).blk t).view.emb y) = _
  rw [emb_8]

/-- One attention row from the operands as the call finds them. -/
def out (c : Dev nD) (r : Fin 13824) (q : Fin 128) : EReal :=
  rowOut (fun e => (V c main_arg1 : S13824x512.Idx → EReal) (ix2 r e)) (fun e => (V c main_arg3 : S13824x512.Idx → EReal) (ix2 r e))
    (fun a e => (V c main_v4 : S256x512.Idx → EReal) (ix2 a e)) (fun a => (V c main_v8 : S1x256.Idx → EReal) (ix2 (0 : Fin 1) a))
    (fun h e => (V c main_v5 : S256x512.Idx → EReal) (ix2 (lo h) e)) (fun h => (V c main_v9 : S1x256.Idx → EReal) (ix2 (0 : Fin 1) (lo h)))
    (fun h e => (V c main_v5 : S256x512.Idx → EReal) (ix2 (hi h) e)) (fun h => (V c main_v9 : S1x256.Idx → EReal) (ix2 (0 : Fin 1) (hi h)))
    (fun k a => (V c main_v12_0 : S1728x256.Idx → EReal) (ix2 k a))
    (fun k h => (V c main_v12_1 : S1728x256.Idx → EReal) (ix2 k (lo h))) (fun k h => (V c main_v12_1 : S1728x256.Idx → EReal) (ix2 k (hi h)))
    (fun k => (V c main_v15 : S1728x128.Idx → EReal) (ix2 k q))

/-- The output array's final contents. -/
def arr9 (c : Dev nD) : S13824x128.Idx → EReal := fun i => out V c ⟨(i 0).val, idx2_lt0 i⟩ ⟨(i 1).val, idx2_lt1 i⟩

theorem flushed_9 (h9 : Stored9) (c : Dev nD) (t : Fin cfg1.N) :
    (dat1 V c).flushed 9 t = ((cfg1.win 9).blk t).view.read (Elt Ideal) (arr9 V c) := by
  show (cfg1.win 9).cut (grid1.coords t) ((dat1 V c).after 9 t) = _
  rw [after1_9]
  funext (y : S1152x128.Idx)
  show out1_9 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) y
    = arr9 V c (((cfg1.win 9).blk t).view.emb y)
  obtain ⟨p, q, rfl⟩ : ∃ (p : Fin 1152) (q : Fin 128), y = ix2 p q := ⟨y 0, y 1, eq_ix2 y⟩
  rw [emb_9, h9]
  unfold arr9 out
  simp only [blk_0, blk_1, blk_2, blk_3, blk_4, blk_5, blk_6, blk_7, blk_8]

/-- The twelve row blocks cover the array: row i lies in block i / 1152. -/
theorem cover_9 (i : S13824x128.Idx) : ∃ t : Fin cfg1.N, (cfg1.win 9).flush t = true ∧ i ∈ ((cfg1.win 9).blk t).view.set := by
  have h0 : (i 0).val < 13824 := (i 0).isLt
  have h1 : (i 1).val < 128 := (i 1).isLt
  have hN : cfg1.N = 12 := N_1
  let t : Fin cfg1.N := ⟨(i 0).val / 1152, by omega⟩
  refine ⟨t, flush1_9 t, ?_⟩
  show i ∈ ((View.whole main_v16).slice (win1_9.rect t)).set
  rw [View.set_slice_whole, Rect.mem_set_unit]
  have h := (index_facts t).2.2.2.2.2.2.2.2.2
  have ht : t.val = (i 0).val / 1152 := rfl
  intro a
  match a with
  | ⟨0, _⟩ => show win1_9.index t (0 : Fin 2) * 1152 ≤ (i 0).val ∧ (i 0).val < win1_9.index t (0 : Fin 2) * 1152 + 1152; rw [h.1, ht]; omega
  | ⟨1, _⟩ => show win1_9.index t (1 : Fin 2) * 128 ≤ (i 1).val ∧ (i 1).val < win1_9.index t (1 : Fin 2) * 128 + 128; rw [h.2]; omega

/-- The output array after the call. -/
theorem final_9 (h9 : Stored9) (c : Dev nD) : (dat1 V c).arrAt 9 cfg1.N = arr9 V c :=
  (dat1 V c).arrAt_eq_of_cover 9 (arr9 V c) (fun t _ => flushed_9 V h9 c t) cover_9

end Cert.KernelIdeal.Region1

end
-- ==== Proof.ResultArray.lean ====
/-
  The specification's result as a 13824 x 64 array, and as the 13824 x 4 x 4 x 4 array both programs return.
-/
import proofs.«112807_j4784593568517_2_alg».proof.Proof.Spec

noncomputable section

namespace Cert.Attn

open Idealize.ShloMosaic Idealize.ShloMosaic.ValueIdx

/-- `result` laid out as an array indexed by (r, j). -/
def resultFlat (pdf : (⟨2, ![1728, 64]⟩ : Shape).Idx → EReal)
    (rp : (⟨2, ![13824, 512]⟩ : Shape).Idx → EReal) (dp : (⟨2, ![1728, 512]⟩ : Shape).Idx → EReal)
    (rl : (⟨2, ![13824, 512]⟩ : Shape).Idx → EReal) (dl : (⟨2, ![1728, 512]⟩ : Shape).Idx → EReal)
    (Wrp : (⟨2, ![256, 512]⟩ : Shape).Idx → EReal) (brp : (⟨1, ![256]⟩ : Shape).Idx → EReal)
    (Wdp : (⟨2, ![256, 512]⟩ : Shape).Idx → EReal) (bdp : (⟨1, ![256]⟩ : Shape).Idx → EReal)
    (Wrc : (⟨2, ![128, 512]⟩ : Shape).Idx → EReal) (brc : (⟨1, ![128]⟩ : Shape).Idx → EReal)
    (Wdc : (⟨2, ![128, 512]⟩ : Shape).Idx → EReal) (bdc : (⟨1, ![128]⟩ : Shape).Idx → EReal)
    (Wro : (⟨2, ![128, 512]⟩ : Shape).Idx → EReal) (bro : (⟨1, ![128]⟩ : Shape).Idx → EReal)
    (Wdo : (⟨2, ![128, 512]⟩ : Shape).Idx → EReal) (bdo : (⟨1, ![128]⟩ : Shape).Idx → EReal) :
    (⟨2, ![13824, 64]⟩ : Shape).Idx → EReal := fun i =>
  result pdf rp dp rl dl Wrp brp Wdp bdp Wrc brc Wdc bdc Wro bro Wdo bdo ⟨(i 0).val, idx2_lt0 i⟩ ⟨(i 1).val, idx2_lt1 i⟩

theorem resultFlat_apply (pdf : (⟨2, ![1728, 64]⟩ : Shape).Idx → EReal)
    (rp : (⟨2, ![13824, 512]⟩ : Shape).Idx → EReal) (dp : (⟨2, ![1728, 512]⟩ : Shape).Idx → EReal)
    (rl : (⟨2, ![13824, 512]⟩ : Shape).Idx → EReal) (dl : (⟨2, ![1728, 512]⟩ : Shape).Idx → EReal)
    (Wrp : (⟨2, ![256, 512]⟩ : Shape).Idx → EReal) (brp : (⟨1, ![256]⟩ : Shape).Idx → EReal)
    (Wdp : (⟨2, ![256, 512]⟩ : Shape).Idx → EReal) (bdp : (⟨1, ![256]⟩ : Shape).Idx → EReal)
    (Wrc : (⟨2, ![128, 512]⟩ : Shape).Idx → EReal) (brc : (⟨1, ![128]⟩ : Shape).Idx → EReal)
    (Wdc : (⟨2, ![128, 512]⟩ : Shape).Idx → EReal) (bdc : (⟨1, ![128]⟩ : Shape).Idx → EReal)
    (Wro : (⟨2, ![128, 512]⟩ : Shape).Idx → EReal) (bro : (⟨1, ![128]⟩ : Shape).Idx → EReal)
    (Wdo : (⟨2, ![128, 512]⟩ : Shape).Idx → EReal) (bdo : (⟨1, ![128]⟩ : Shape).Idx → EReal)
    (r : Fin 13824) (j : Fin 64) :
    resultFlat pdf rp dp rl dl Wrp brp Wdp bdp Wrc brc Wdc bdc Wro bro Wdo bdo (ix2 r j)
      = result pdf rp dp rl dl Wrp brp Wdp bdp Wrc brc Wdc bdc Wro bro Wdo bdo r j := rfl

end Cert.Attn

end
-- ==== Proof.KernelValue.lean ====
/-
  The idealized kernel program's result, entry by entry.  Walking the buffer contents back through the seven segments: the
  result is the reshape of the first 64 columns of the second call's output array; that array holds, in row r and column q,
  one attention row computed from the second call's operands as it finds them; those operands are the range-side arguments
  themselves, the range-side weight tables (the contrast and offset tables as the two halves of one concatenation, the
  biases reshaped to one row), the first call's two output arrays and the padded pooled domains; and the first call's
  outputs are the affine images of the domain rows under the domain-side tables.  Put together this is the specification's
  `result` of the seventeen arguments.
-/
import proofs.«112807_j4784593568517_2_alg».proof.Proof.HostReads
import proofs.«112807_j4784593568517_2_alg».proof.Proof.Region0
import proofs.«112807_j4784593568517_2_alg».proof.Proof.Region1
import proofs.«112807_j4784593568517_2_alg».proof.Proof.Spec
import proofs.«112807_j4784593568517_2_alg».proof.Proof.ResultArray
import Idealize.ShloMosaic.Lib.KernelVsHost
import Idealize.ShloMosaic.Lib.ValueLayout
import Idealize.ShloMosaic.Lib.Pipeline.Value

set_option maxRecDepth 16384

noncomputable section

namespace Cert.KernelIdeal.KValue

open Idealize.ShloMosaic Idealize.ShloMosaic.TcCoe Idealize.SL.Sem Idealize.ShloMosaic.ValueIdx Idealize.ShloMosaic.StableHlo
open Cert.KernelIdeal Cert.KernelIdeal.Gen Cert.KernelIdeal.HostReads Cert.Attn

/-! ## Layout operations at the indices the attention row reads -/

section Layout
variable {α : Type}

/-- Row h of the first half of a concatenation of two 128-row tables is row h of the first table. -/
theorem concat_rows_lo (A B : S128x512.Idx → α) (h : Fin 128) (e : Fin 512) :
    concatenate S256x512 0 [⟨S128x512, A⟩, ⟨S128x512, B⟩] concatenates_S128x512_S128x512_S256x512_d0 (ix2 (lo h) e) = A (ix2 h e) :=
  concatenate_pair_apply_left 0 A B concatenates_S128x512_S128x512_S256x512_d0 (ix2 (lo h) e) rfl (ix2 h e)
    (fun b => by match b with | ⟨0, _⟩ => rfl | ⟨1, _⟩ => rfl)

/-- Row h of the second half is row h of the second table. -/
theorem concat_rows_hi (A B : S128x512.Idx → α) (h : Fin 128) (e : Fin 512) :
    concatenate S256x512 0 [⟨S128x512, A⟩, ⟨S128x512, B⟩] concatenates_S128x512_S128x512_S256x512_d0 (ix2 (hi h) e) = B (ix2 h e) :=
  concatenate_pair_apply_right 0 A B concatenates_S128x512_S128x512_S256x512_d0 (ix2 (hi h) e) rfl rfl (ix2 h e)
    (fun b hb => by match b with | ⟨0, _⟩ => exact absurd rfl hb | ⟨1, _⟩ => rfl)
    (by show h.val + 128 = 128 + h.val; omega)

/-- The same for two 128-entry vectors. -/
theorem concat_vec_lo (A B : S128.Idx → α) (h : Fin 128) :
    concatenate S256 0 [⟨S128, A⟩, ⟨S128, B⟩] concatenates_S128_S128_S256_d0 (ix1 (lo h)) = A (ix1 h) :=
  concatenate_pair_apply_left 0 A B concatenates_S128_S128_S256_d0 (ix1 (lo h)) rfl (ix1 h)
    (fun b => by match b with | ⟨0, _⟩ => rfl)
theorem concat_vec_hi (A B : S128.Idx → α) (h : Fin 128) :
    concatenate S256 0 [⟨S128, A⟩, ⟨S128, B⟩] concatenates_S128_S128_S256_d0 (ix1 (hi h)) = B (ix1 h) :=
  concatenate_pair_apply_right 0 A B concatenates_S128_S128_S256_d0 (ix1 (hi h)) rfl rfl (ix1 h)
    (fun b hb => by match b with | ⟨0, _⟩ => exact absurd rfl hb)
    (by show h.val + 128 = 128 + h.val; omega)

/-- A 256-vector laid out as one row. -/
theorem row_of_vec (x : S256.Idx → α) (a : Fin 256) :
    shapeCast S1x256 x shapeCasts_S256_S1x256 (ix2 (0 : Fin 1) a) = x (ix1 a) :=
  shapeCast_a_1a_apply x shapeCasts_S256_S1x256 0 a

/-- The padded pooled domains, read inside the first 64 columns, are the flattened pooled domains. -/
theorem pad_inside (X : S1728x64.Idx → α) (v : S_.Idx → α) (k : Fin 1728) (j : Fin 64) :
    pad S1728x128 ![0, 0] ![0, 64] ![0, 0] X v pads_S1728x64_S1728x128_000_0640 h_S_ (ix2 k (⟨j.val, by omega⟩ : Fin 128)) = X (ix2 k j) :=
  pad_apply_of_inside ![0, 0] ![0, 64] ![0, 0] X v pads_S1728x64_S1728x128_000_0640 h_S_ _ (ix2 k j)
    (fun a => by match a with | ⟨0, _⟩ => show k.val = 0 + k.val * (0 + 1); omega | ⟨1, _⟩ => show j.val = 0 + j.val * (0 + 1); omega)

end Layout

variable (m : (ℓ : Loc nD τ sig) → Buf (Elt Ideal) ℓ) (ρ : Dev nD → PrngReg) (c : Dev nD)

/-! ## What the first call finds -/

theorem V1_arg2 : V1 m ρ c main_arg2 = m ((c : Thread nD τ).loc main_arg2) := ops0_arg2 (W0 m ρ c)
theorem V1_arg4 : V1 m ρ c main_arg4 = m ((c : Thread nD τ).loc main_arg4) := ops0_arg4 (W0 m ρ c)
theorem V1_v6 : (V1 m ρ c main_v6 : S256x512.Idx → EReal) = (m ((c : Thread nD τ).loc main_arg7) : S256x512.Idx → EReal) :=
  ops0_v6 (W0 m ρ c)
theorem V1_v10 : (V1 m ρ c main_v10 : S1x256.Idx → EReal)
    = shapeCast S1x256 (m ((c : Thread nD τ).loc main_arg8) : S256.Idx → EReal) shapeCasts_S256_S1x256 := ops0_v10 (W0 m ρ c)
theorem V1_v7 : (V1 m ρ c main_v7 : S256x512.Idx → EReal)
    = concatenate S256x512 0 [⟨S128x512, (m ((c : Thread nD τ).loc main_arg11) : S128x512.Idx → EReal)⟩, ⟨S128x512, (m ((c : Thread nD τ).loc main_arg15) : S128x512.Idx → EReal)⟩] concatenates_S128x512_S128x512_S256x512_d0 :=
  ops0_v7 (W0 m ρ c)
theorem V1_v11 : (V1 m ρ c main_v11 : S1x256.Idx → EReal)
    = shapeCast S1x256 (concatenate S256 0 [⟨S128, (m ((c : Thread nD τ).loc main_arg12) : S128.Idx → EReal)⟩, ⟨S128, (m ((c : Thread nD τ).loc main_arg16) : S128.Idx → EReal)⟩] concatenates_S128_S128_S256_d0) shapeCasts_S256_S1x256 :=
  ops0_v11 (W0 m ρ c)

/-! ## What the second call finds -/

theorem V5_arg1 : V5 m ρ c main_arg1 = m ((c : Thread nD τ).loc main_arg1) :=
  (mid_arg1 (W2 m ρ c)).trans ((W2_of_ne m ρ c main_arg1 (by decide)).trans (ops0_arg1 (W0 m ρ c)))
theorem V5_arg3 : V5 m ρ c main_arg3 = m ((c : Thread nD τ).loc main_arg3) :=
  (mid_arg3 (W2 m ρ c)).trans ((W2_of_ne m ρ c main_arg3 (by decide)).trans (ops0_arg3 (W0 m ρ c)))
theorem V5_v4 : (V5 m ρ c main_v4 : S256x512.Idx → EReal) = (m ((c : Thread nD τ).loc main_arg5) : S256x512.Idx → EReal) :=
  (mid_v4 (W2 m ρ c)).trans ((W2_of_ne m ρ c main_v4 (by decide)).trans (ops0_v4 (W0 m ρ c)))
theorem V5_v8 : (V5 m ρ c main_v8 : S1x256.Idx → EReal)
    = shapeCast S1x256 (m ((c : Thread nD τ).loc main_arg6) : S256.Idx → EReal) shapeCasts_S256_S1x256 :=
  (mid_v8 (W2 m ρ c)).trans ((W2_of_ne m ρ c main_v8 (by decide)).trans (ops0_v8 (W0 m ρ c)))
theorem V5_v5 : (V5 m ρ c main_v5 : S256x512.Idx → EReal)
    = concatenate S256x512 0 [⟨S128x512, (m ((c : Thread nD τ).loc main_arg9) : S128x512.Idx → EReal)⟩, ⟨S128x512, (m ((c : Thread nD τ).loc main_arg13) : S128x512.Idx → EReal)⟩] concatenates_S128x512_S128x512_S256x512_d0 :=
  (mid_v5 (W2 m ρ c)).trans ((W2_of_ne m ρ c main_v5 (by decide)).trans (ops0_v5 (W0 m ρ c)))
theorem V5_v9 : (V5 m ρ c main_v9 : S1x256.Idx → EReal)
    = shapeCast S1x256 (concatenate S256 0 [⟨S128, (m ((c : Thread nD τ).loc main_arg10) : S128.Idx → EReal)⟩, ⟨S128, (m ((c : Thread nD τ).loc main_arg14) : S128.Idx → EReal)⟩] concatenates_S128_S128_S256_d0) shapeCasts_S256_S1x256 :=
  (mid_v9 (W2 m ρ c)).trans ((W2_of_ne m ρ c main_v9 (by decide)).trans (ops0_v9 (W0 m ρ c)))
theorem V5_v15 : (V5 m ρ c main_v15 : S1728x128.Idx → EReal)
    = pad S1728x128 ![0, 0] ![0, 64] ![0, 0]
        (shapeCast S1728x64 (m ((c : Thread nD τ).loc main_arg0) : S1728x4x4x4.Idx → EReal) shapeCasts_S1728x4x4x4_S1728x64)
        (sitofp (F := Ideal) .f32 (constantI S_ 32 0#32)) pads_S1728x64_S1728x128_000_0640 h_S_ :=
  (mid_v15 (W2 m ρ c)).trans (by
    rw [W2_of_ne m ρ c main_arg0 (by decide), show W1 m ρ c (Proc.devRef .tc main_arg0) = m ((c : Thread nD τ).loc main_arg0) from ops0_arg0 (W0 m ρ c)]; rfl)

/-- The first call's outputs reach the second call untouched. -/
theorem V5_v12_0 (h6 : Region0.Stored6) : (V5 m ρ c main_v12_0 : S1728x256.Idx → EReal) = Region0.arr6 (V1 m ρ) c :=
  (mid_v12_0 (W2 m ρ c)).trans ((W2_arr m ρ c 6).trans (Region0.final_6 (V1 m ρ) h6 c))
theorem V5_v12_1 (h7 : Region0.Stored7) : (V5 m ρ c main_v12_1 : S1728x256.Idx → EReal) = Region0.arr7 (V1 m ρ) c :=
  (mid_v12_1 (W2 m ρ c)).trans ((W2_arr m ρ c 7).trans (Region0.final_7 (V1 m ρ) h7 c))

/-! ## The first call's outputs as affine images of the domain rows -/

theorem arr6_apply (k : Fin 1728) (a : Fin 256) :
    Region0.arr6 (V1 m ρ) c (ix2 k a) = domLin (m ((c : Thread nD τ).loc main_arg2)) (m ((c : Thread nD τ).loc main_arg4)) (m ((c : Thread nD τ).loc main_arg7)) (m ((c : Thread nD τ).loc main_arg8)) k a := by
  show Region0.proj (V1 m ρ c main_arg2) (V1 m ρ c main_arg4) (V1 m ρ c main_v6) (V1 m ρ c main_v10) k a = _
  rw [V1_arg2, V1_arg4, V1_v6, V1_v10]
  unfold Region0.proj domLin
  simp only [row_of_vec]

theorem arr7_lo (k : Fin 1728) (h : Fin 128) :
    Region0.arr7 (V1 m ρ) c (ix2 k (lo h)) = domLin (m ((c : Thread nD τ).loc main_arg2)) (m ((c : Thread nD τ).loc main_arg4)) (m ((c : Thread nD τ).loc main_arg11)) (m ((c : Thread nD τ).loc main_arg12)) k h := by
  show Region0.proj (V1 m ρ c main_arg2) (V1 m ρ c main_arg4) (V1 m ρ c main_v7) (V1 m ρ c main_v11) k (lo h) = _
  rw [V1_arg2, V1_arg4, V1_v7, V1_v11]
  unfold Region0.proj domLin lin
  simp only [row_of_vec, concat_rows_lo, concat_vec_lo]

theorem arr7_hi (k : Fin 1728) (h : Fin 128) :
    Region0.arr7 (V1 m ρ) c (ix2 k (hi h)) = domLin (m ((c : Thread nD τ).loc main_arg2)) (m ((c : Thread nD τ).loc main_arg4)) (m ((c : Thread nD τ).loc main_arg15)) (m ((c : Thread nD τ).loc main_arg16)) k h := by
  show Region0.proj (V1 m ρ c main_arg2) (V1 m ρ c main_arg4) (V1 m ρ c main_v7) (V1 m ρ c main_v11) k (hi h) = _
  rw [V1_arg2, V1_arg4, V1_v7, V1_v11]
  unfold Region0.proj domLin lin
  simp only [row_of_vec, concat_rows_hi, concat_vec_hi]

/-! ## The second call's output array in its first 64 columns -/

theorem arr9_apply (h6 : Region0.Stored6) (h7 : Region0.Stored7) (r : Fin 13824) (j : Fin 64) :
    Region1.arr9 (V5 m ρ) c (ix2 r (⟨j.val, by omega⟩ : Fin 128))
      = result (shapeCast S1728x64 (m ((c : Thread nD τ).loc main_arg0) : S1728x4x4x4.Idx → EReal) shapeCasts_S1728x4x4x4_S1728x64) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) r j := by
  show Region1.out (V5 m ρ) c r (⟨j.val, by omega⟩ : Fin 128) = _
  unfold Region1.out result
  rw [V5_arg1, V5_arg3, V5_v4, V5_v8, V5_v5, V5_v9, V5_v12_0 m ρ c h6, V5_v12_1 m ρ c h7, V5_v15]
  simp only [row_of_vec, concat_rows_lo, concat_rows_hi, concat_vec_lo, concat_vec_hi, pad_inside, arr6_apply, arr7_lo, arr7_hi]

/-- The result buffer after the run. -/
theorem result_v18 (h6 : Region0.Stored6) (h7 : Region0.Stored7) (h9 : Region1.Stored9) :
    W7 m ρ c (Proc.devRef .tc main_v18)
      = shapeCast S13824x4x4x4 (resultFlat (shapeCast S1728x64 (m ((c : Thread nD τ).loc main_arg0) : S1728x4x4x4.Idx → EReal) shapeCasts_S1728x4x4x4_S1728x64) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) shapeCasts_S13824x64_S13824x4x4x4 := by
  rw [show W7 m ρ c (Proc.devRef .tc main_v18) = _ from tail_v18 (W6 m ρ c)]
  refine congrArg (fun X => shapeCast S13824x4x4x4 X shapeCasts_S13824x64_S13824x4x4x4) (funext fun i => ?_)
  obtain ⟨r, j, rfl⟩ : ∃ (r : Fin 13824) (j : Fin 64), i = ix2 r j := ⟨i 0, i 1, eq_ix2 i⟩
  rw [resultFlat_apply]
  rw [slice2_axis1_apply 0 _ slices_S13824x128_S13824x64_0_0 r j (⟨j.val, by omega⟩ : Fin 128) (by simp)]
  rw [show W6 m ρ c (Proc.devRef .tc main_v16) = _ from W6_arr m ρ c 9, Region1.final_9 (V5 m ρ) h9 c]
  exact arr9_apply m ρ c h6 h7 r j

end Cert.KernelIdeal.KValue

end
-- ==== Proof.RefValueA.lean ====
/-
  The six affine stages of the reference read at an index: each is the specification's `lin` of a row of
  (positional + latents), the two summands commuted.
-/
import proofs.«112807_j4784593568517_2_alg».proof.Proof.Gen.ReferenceIdeal.Read
import proofs.«112807_j4784593568517_2_alg».proof.Proof.Spec

noncomputable section
namespace Cert.ReferenceIdeal.RefValue
open Idealize.ShloMosaic Idealize.ShloMosaic.ValueIdx Cert.ReferenceIdeal Cert.Attn

variable (x0 : (⟨S1728x4x4x4, .f32⟩ : BufTy).Contents (Elt Ideal)) (x1 : (⟨S13824x512, .f32⟩ : BufTy).Contents (Elt Ideal)) (x2 : (⟨S1728x512, .f32⟩ : BufTy).Contents (Elt Ideal)) (x3 : (⟨S13824x512, .f32⟩ : BufTy).Contents (Elt Ideal)) (x4 : (⟨S1728x512, .f32⟩ : BufTy).Contents (Elt Ideal)) (x5 : (⟨S256x512, .f32⟩ : BufTy).Contents (Elt Ideal)) (x6 : (⟨S256, .f32⟩ : BufTy).Contents (Elt Ideal)) (x7 : (⟨S256x512, .f32⟩ : BufTy).Contents (Elt Ideal)) (x8 : (⟨S256, .f32⟩ : BufTy).Contents (Elt Ideal)) (x9 : (⟨S128x512, .f32⟩ : BufTy).Contents (Elt Ideal)) (x10 : (⟨S128, .f32⟩ : BufTy).Contents (Elt Ideal)) (x11 : (⟨S128x512, .f32⟩ : BufTy).Contents (Elt Ideal)) (x12 : (⟨S128, .f32⟩ : BufTy).Contents (Elt Ideal)) (x13 : (⟨S128x512, .f32⟩ : BufTy).Contents (Elt Ideal)) (x14 : (⟨S128, .f32⟩ : BufTy).Contents (Elt Ideal)) (x15 : (⟨S128x512, .f32⟩ : BufTy).Contents (Elt Ideal)) (x16 : (⟨S128, .f32⟩ : BufTy).Contents (Elt Ideal))

/-- The range-side affine map onto 256 outputs, at row `r` and output `a`. -/
theorem v6_at (r : Fin 13824) (a : Fin 256) :
    Read.val_main_v6 (F := Ideal) x1 x3 x5 x6 (ix2 r a)
      = lin (base (fun e => x1 (ix2 r e)) (fun e => x3 (ix2 r e))) (fun a e => x5 (ix2 a e)) (fun a => x6 (ix1 a)) a := by
  rw [Read.val_main_v6_apply, Read.val_main_v3_apply, Read.val_main_v5_apply, Read.val_main_v4_apply]
  unfold lin base
  rw [Ideal.addf_def]
  refine congrArg₂ (· + ·) (Finset.sum_congr rfl fun k _ => ?_) ?_
  · rw [Read.val_main_v2_apply, Read.val_main_v0_apply, Ideal.addf_def, add_comm (x3 _) (x1 _)]
    have e0 : Read.lidx_main_v3 (ix2 r a) k = ix2 r k :=
      funext fun d => Fin.ext (by match d with | ⟨0, _⟩ => rfl | ⟨1, _⟩ => rfl)
    have e1 : Read.idx_main_v2 (Read.ridx_main_v3 (ix2 r a) k) = ix2 a k :=
      funext fun d => Fin.ext (by match d with | ⟨0, _⟩ => rfl | ⟨1, _⟩ => rfl)
    rw [e0, e1]
  · exact congrArg x6 (funext fun d => Fin.ext (by match d with | ⟨0, _⟩ => rfl))

/-- The domain-side affine map onto 256 outputs, at domain row `k` and output `a`. -/
theorem v11_at (k : Fin 1728) (a : Fin 256) :
    Read.val_main_v11 (F := Ideal) x2 x4 x7 x8 (ix2 k a) = domLin x2 x4 x7 x8 k a := by
  rw [Read.val_main_v11_apply, Read.val_main_v8_apply, Read.val_main_v10_apply, Read.val_main_v9_apply]
  unfold domLin lin
  rw [Ideal.addf_def]
  refine congrArg₂ (· + ·) (Finset.sum_congr rfl fun e _ => ?_) ?_
  · rw [Read.val_main_v7_apply, Read.val_main_v1_apply, Ideal.addf_def, add_comm (x4 _) (x2 _)]
    have e0 : Read.lidx_main_v8 (ix2 k a) e = ix2 k e :=
      funext fun d => Fin.ext (by match d with | ⟨0, _⟩ => rfl | ⟨1, _⟩ => rfl)
    have e1 : Read.idx_main_v7 (Read.ridx_main_v8 (ix2 k a) e) = ix2 a e :=
      funext fun d => Fin.ext (by match d with | ⟨0, _⟩ => rfl | ⟨1, _⟩ => rfl)
    rw [e0, e1]
  · exact congrArg x8 (funext fun d => Fin.ext (by match d with | ⟨0, _⟩ => rfl))

/-- The range-side affine map of the contrast head, at row `r` and output `h`. -/
theorem v16_at (r : Fin 13824) (h : Fin 128) :
    Read.val_main_v16 (F := Ideal) x1 x3 x9 x10 (ix2 r h)
      = lin (base (fun e => x1 (ix2 r e)) (fun e => x3 (ix2 r e))) (fun a e => x9 (ix2 a e)) (fun a => x10 (ix1 a)) h := by
  rw [Read.val_main_v16_apply, Read.val_main_v13_apply, Read.val_main_v15_apply, Read.val_main_v14_apply]
  unfold lin base
  rw [Ideal.addf_def]
  refine congrArg₂ (· + ·) (Finset.sum_congr rfl fun k _ => ?_) ?_
  · rw [Read.val_main_v12_apply, Read.val_main_v0_apply, Ideal.addf_def, add_comm (x3 _) (x1 _)]
    have e0 : Read.lidx_main_v13 (ix2 r h) k = ix2 r k :=
      funext fun d => Fin.ext (by match d with | ⟨0, _⟩ => rfl | ⟨1, _⟩ => rfl)
    have e1 : Read.idx_main_v12 (Read.ridx_main_v13 (ix2 r h) k) = ix2 h k :=
      funext fun d => Fin.ext (by match d with | ⟨0, _⟩ => rfl | ⟨1, _⟩ => rfl)
    rw [e0, e1]
  · exact congrArg x10 (funext fun d => Fin.ext (by match d with | ⟨0, _⟩ => rfl))

/-- The domain-side affine map of the contrast head, at domain row `k` and output `h`. -/
theorem v21_at (k : Fin 1728) (h : Fin 128) :
    Read.val_main_v21 (F := Ideal) x2 x4 x11 x12 (ix2 k h) = domLin x2 x4 x11 x12 k h := by
  rw [Read.val_main_v21_apply, Read.val_main_v18_apply, Read.val_main_v20_apply, Read.val_main_v19_apply]
  unfold domLin lin
  rw [Ideal.addf_def]
  refine congrArg₂ (· + ·) (Finset.sum_congr rfl fun e _ => ?_) ?_
  · rw [Read.val_main_v17_apply, Read.val_main_v1_apply, Ideal.addf_def, add_comm (x4 _) (x2 _)]
    have e0 : Read.lidx_main_v18 (ix2 k h) e = ix2 k e :=
      funext fun d => Fin.ext (by match d with | ⟨0, _⟩ => rfl | ⟨1, _⟩ => rfl)
    have e1 : Read.idx_main_v17 (Read.ridx_main_v18 (ix2 k h) e) = ix2 h e :=
      funext fun d => Fin.ext (by match d with | ⟨0, _⟩ => rfl | ⟨1, _⟩ => rfl)
    rw [e0, e1]
  · exact congrArg x12 (funext fun d => Fin.ext (by match d with | ⟨0, _⟩ => rfl))

/-- The range-side affine map of the offset head, at row `r` and output `h`. -/
theorem v33_at (r : Fin 13824) (h : Fin 128) :
    Read.val_main_v33 (F := Ideal) x1 x3 x13 x14 (ix2 r h)
      = lin (base (fun e => x1 (ix2 r e)) (fun e => x3 (ix2 r e))) (fun a e => x13 (ix2 a e)) (fun a => x14 (ix1 a)) h := by
  rw [Read.val_main_v33_apply, Read.val_main_v30_apply, Read.val_main_v32_apply, Read.val_main_v31_apply]
  unfold lin base
  rw [Ideal.addf_def]
  refine congrArg₂ (· + ·) (Finset.sum_congr rfl fun k _ => ?_) ?_
  · rw [Read.val_main_v29_apply, Read.val_main_v0_apply, Ideal.addf_def, add_comm (x3 _) (x1 _)]
    have e0 : Read.lidx_main_v30 (ix2 r h) k = ix2 r k :=
      funext fun d => Fin.ext (by match d with | ⟨0, _⟩ => rfl | ⟨1, _⟩ => rfl)
    have e1 : Read.idx_main_v29 (Read.ridx_main_v30 (ix2 r h) k) = ix2 h k :=
      funext fun d => Fin.ext (by match d with | ⟨0, _⟩ => rfl | ⟨1, _⟩ => rfl)
    rw [e0, e1]
  · exact congrArg x14 (funext fun d => Fin.ext (by match d with | ⟨0, _⟩ => rfl))

/-- The domain-side affine map of the offset head, at domain row `k` and output `h`. -/
theorem v38_at (k : Fin 1728) (h : Fin 128) :
    Read.val_main_v38 (F := Ideal) x2 x4 x15 x16 (ix2 k h) = domLin x2 x4 x15 x16 k h := by
  rw [Read.val_main_v38_apply, Read.val_main_v35_apply, Read.val_main_v37_apply, Read.val_main_v36_apply]
  unfold domLin lin
  rw [Ideal.addf_def]
  refine congrArg₂ (· + ·) (Finset.sum_congr rfl fun e _ => ?_) ?_
  · rw [Read.val_main_v34_apply, Read.val_main_v1_apply, Ideal.addf_def, add_comm (x4 _) (x2 _)]
    have e0 : Read.lidx_main_v35 (ix2 k h) e = ix2 k e :=
      funext fun d => Fin.ext (by match d with | ⟨0, _⟩ => rfl | ⟨1, _⟩ => rfl)
    have e1 : Read.idx_main_v34 (Read.ridx_main_v35 (ix2 k h) e) = ix2 h e :=
      funext fun d => Fin.ext (by match d with | ⟨0, _⟩ => rfl | ⟨1, _⟩ => rfl)
    rw [e0, e1]
  · exact congrArg x16 (funext fun d => Fin.ext (by match d with | ⟨0, _⟩ => rfl))

end Cert.ReferenceIdeal.RefValue
end
-- ==== Proof.RefValueB.lean ====
/-
  The three score arrays of the reference read at an index: each entry is the dot product of a range row's affine image
  with a domain row's affine image, scaled; the two 128-wide ones then go through tanh.
-/
import proofs.«112807_j4784593568517_2_alg».proof.Proof.RefValueA

noncomputable section
namespace Cert.ReferenceIdeal.RefValue
open Idealize.ShloMosaic Idealize.ShloMosaic.ValueIdx Cert.ReferenceIdeal Cert.Attn

variable (x0 : (⟨S1728x4x4x4, .f32⟩ : BufTy).Contents (Elt Ideal)) (x1 : (⟨S13824x512, .f32⟩ : BufTy).Contents (Elt Ideal)) (x2 : (⟨S1728x512, .f32⟩ : BufTy).Contents (Elt Ideal)) (x3 : (⟨S13824x512, .f32⟩ : BufTy).Contents (Elt Ideal)) (x4 : (⟨S1728x512, .f32⟩ : BufTy).Contents (Elt Ideal)) (x5 : (⟨S256x512, .f32⟩ : BufTy).Contents (Elt Ideal)) (x6 : (⟨S256, .f32⟩ : BufTy).Contents (Elt Ideal)) (x7 : (⟨S256x512, .f32⟩ : BufTy).Contents (Elt Ideal)) (x8 : (⟨S256, .f32⟩ : BufTy).Contents (Elt Ideal)) (x9 : (⟨S128x512, .f32⟩ : BufTy).Contents (Elt Ideal)) (x10 : (⟨S128, .f32⟩ : BufTy).Contents (Elt Ideal)) (x11 : (⟨S128x512, .f32⟩ : BufTy).Contents (Elt Ideal)) (x12 : (⟨S128, .f32⟩ : BufTy).Contents (Elt Ideal)) (x13 : (⟨S128x512, .f32⟩ : BufTy).Contents (Elt Ideal)) (x14 : (⟨S128, .f32⟩ : BufTy).Contents (Elt Ideal)) (x15 : (⟨S128x512, .f32⟩ : BufTy).Contents (Elt Ideal)) (x16 : (⟨S128, .f32⟩ : BufTy).Contents (Elt Ideal))

/-- The softmax logits: the 256-wide score times 1/4. -/
theorem v47_at (r : Fin 13824) (k : Fin 1728) :
    Read.val_main_v47 (F := Ideal) x1 x2 x3 x4 x5 x6 x7 x8 (ix2 r k)
      = dots (lin (base (fun e => x1 (ix2 r e)) (fun e => x3 (ix2 r e))) (fun a e => x5 (ix2 a e)) (fun a => x6 (ix1 a)))
          (domLin x2 x4 x7 x8) k * cQuarter := by
  rw [Read.val_main_v47_apply, Read.val_main_v45_apply, Read.val_main_v46_apply, Read.val_main_cst_2_apply]
  have hs : (∑ a : Fin 256, Read.val_main_v6 (F := Ideal) x1 x3 x5 x6 (Read.lidx_main_v45 (ix2 r k) a)
        * Read.val_main_v44 (F := Ideal) x2 x4 x7 x8 (Read.ridx_main_v45 (ix2 r k) a))
      = ∑ a : Fin 256, lin (base (fun e => x1 (ix2 r e)) (fun e => x3 (ix2 r e))) (fun a e => x5 (ix2 a e)) (fun a => x6 (ix1 a)) a
          * domLin x2 x4 x7 x8 k a :=
    Finset.sum_congr rfl fun a _ => by
      have e0 : Read.lidx_main_v45 (ix2 r k) a = ix2 r a :=
        funext fun d => Fin.ext (by match d with | ⟨0, _⟩ => rfl | ⟨1, _⟩ => rfl)
      have e1 : Read.idx_main_v44 (Read.ridx_main_v45 (ix2 r k) a) = ix2 k a :=
        funext fun d => Fin.ext (by match d with | ⟨0, _⟩ => rfl | ⟨1, _⟩ => rfl)
      rw [Read.val_main_v44_apply, e0, e1, v6_at, v11_at]
  rw [hs]
  rfl

/-- The contrast head: tanh of the scaled 128-wide score, times the contrast bound. -/
theorem v28_at (r : Fin 13824) (k : Fin 1728) :
    Read.val_main_v28 (F := Ideal) x1 x2 x3 x4 x9 x10 x11 x12 (ix2 r k)
      = head (fun e => x1 (ix2 r e)) (fun e => x3 (ix2 r e)) (fun a e => x9 (ix2 a e)) (fun a => x10 (ix1 a))
          (domLin x2 x4 x11 x12) k * cContrast := by
  rw [Read.val_main_v28_apply, Read.val_main_v26_apply, Read.val_main_v25_apply, Read.val_main_v23_apply,
    Read.val_main_v27_apply, Read.val_main_cst_0_apply, Read.val_main_v24_apply, Read.val_main_cst_apply]
  have hs : (∑ a : Fin 128, Read.val_main_v16 (F := Ideal) x1 x3 x9 x10 (Read.lidx_main_v23 (ix2 r k) a)
        * Read.val_main_v22 (F := Ideal) x2 x4 x11 x12 (Read.ridx_main_v23 (ix2 r k) a))
      = ∑ a : Fin 128, lin (base (fun e => x1 (ix2 r e)) (fun e => x3 (ix2 r e))) (fun a e => x9 (ix2 a e)) (fun a => x10 (ix1 a)) a
          * domLin x2 x4 x11 x12 k a :=
    Finset.sum_congr rfl fun a _ => by
      have e0 : Read.lidx_main_v23 (ix2 r k) a = ix2 r a :=
        funext fun d => Fin.ext (by match d with | ⟨0, _⟩ => rfl | ⟨1, _⟩ => rfl)
      have e1 : Read.idx_main_v22 (Read.ridx_main_v23 (ix2 r k) a) = ix2 k a :=
        funext fun d => Fin.ext (by match d with | ⟨0, _⟩ => rfl | ⟨1, _⟩ => rfl)
      rw [Read.val_main_v22_apply, e0, e1, v16_at, v21_at]
  rw [hs]
  rfl

/-- The offset head: tanh of the scaled 128-wide score. -/
theorem v43_at (r : Fin 13824) (k : Fin 1728) :
    Read.val_main_v43 (F := Ideal) x1 x2 x3 x4 x13 x14 x15 x16 (ix2 r k)
      = head (fun e => x1 (ix2 r e)) (fun e => x3 (ix2 r e)) (fun a e => x13 (ix2 a e)) (fun a => x14 (ix1 a))
          (domLin x2 x4 x15 x16) k := by
  rw [Read.val_main_v43_apply, Read.val_main_v42_apply, Read.val_main_v40_apply,
    Read.val_main_v41_apply, Read.val_main_cst_1_apply]
  have hs : (∑ a : Fin 128, Read.val_main_v33 (F := Ideal) x1 x3 x13 x14 (Read.lidx_main_v40 (ix2 r k) a)
        * Read.val_main_v39 (F := Ideal) x2 x4 x15 x16 (Read.ridx_main_v40 (ix2 r k) a))
      = ∑ a : Fin 128, lin (base (fun e => x1 (ix2 r e)) (fun e => x3 (ix2 r e))) (fun a e => x13 (ix2 a e)) (fun a => x14 (ix1 a)) a
          * domLin x2 x4 x15 x16 k a :=
    Finset.sum_congr rfl fun a _ => by
      have e0 : Read.lidx_main_v40 (ix2 r k) a = ix2 r a :=
        funext fun d => Fin.ext (by match d with | ⟨0, _⟩ => rfl | ⟨1, _⟩ => rfl)
      have e1 : Read.idx_main_v39 (Read.ridx_main_v40 (ix2 r k) a) = ix2 k a :=
        funext fun d => Fin.ext (by match d with | ⟨0, _⟩ => rfl | ⟨1, _⟩ => rfl)
      rw [Read.val_main_v39_apply, e0, e1, v33_at, v38_at]
  rw [hs]
  rfl

end Cert.ReferenceIdeal.RefValue
end
-- ==== Proof.RefValueC.lean ====
/-
  The softmax of the reference read at an index: the row maximum (a fold of `max` from minus infinity, which the
  further maximum with minus infinity does not change), the shifted exponentials, their row sum, and the quotient.
-/
import proofs.«112807_j4784593568517_2_alg».proof.Proof.RefValueB

noncomputable section
namespace Cert.ReferenceIdeal.RefValue
open Idealize.ShloMosaic Idealize.ShloMosaic.ValueIdx Cert.ReferenceIdeal Cert.Attn

variable (x0 : (⟨S1728x4x4x4, .f32⟩ : BufTy).Contents (Elt Ideal)) (x1 : (⟨S13824x512, .f32⟩ : BufTy).Contents (Elt Ideal)) (x2 : (⟨S1728x512, .f32⟩ : BufTy).Contents (Elt Ideal)) (x3 : (⟨S13824x512, .f32⟩ : BufTy).Contents (Elt Ideal)) (x4 : (⟨S1728x512, .f32⟩ : BufTy).Contents (Elt Ideal)) (x5 : (⟨S256x512, .f32⟩ : BufTy).Contents (Elt Ideal)) (x6 : (⟨S256, .f32⟩ : BufTy).Contents (Elt Ideal)) (x7 : (⟨S256x512, .f32⟩ : BufTy).Contents (Elt Ideal)) (x8 : (⟨S256, .f32⟩ : BufTy).Contents (Elt Ideal)) (x9 : (⟨S128x512, .f32⟩ : BufTy).Contents (Elt Ideal)) (x10 : (⟨S128, .f32⟩ : BufTy).Contents (Elt Ideal)) (x11 : (⟨S128x512, .f32⟩ : BufTy).Contents (Elt Ideal)) (x12 : (⟨S128, .f32⟩ : BufTy).Contents (Elt Ideal)) (x13 : (⟨S128x512, .f32⟩ : BufTy).Contents (Elt Ideal)) (x14 : (⟨S128, .f32⟩ : BufTy).Contents (Elt Ideal)) (x15 : (⟨S128x512, .f32⟩ : BufTy).Contents (Elt Ideal)) (x16 : (⟨S128, .f32⟩ : BufTy).Contents (Elt Ideal))

/-- A fold of `max` from `b` is at least `b`. -/
theorem max_fold_max_self {ι : Type} (s : Finset ι) (b : EReal) (f : ι → EReal) :
    max b (s.fold max b f) = s.fold max b f :=
  max_eq_right ((Finset.le_fold_max b).mpr (Or.inl le_rfl))

/-- The row maximum of the logits. -/
theorem v50_at (r : Fin 13824) :
    Read.val_main_v50 (F := Ideal) x1 x2 x3 x4 x5 x6 x7 x8 (ix1 r) = rowMax (fun k => Read.val_main_v47 (F := Ideal) x1 x2 x3 x4 x5 x6 x7 x8 (ix2 r k)) := by
  rw [Read.val_main_v50_apply, Read.val_main_v49_apply, Read.val_main_cst_4_apply]
  unfold Read.val_main_v48 rowMax cNegInf
  generalize Read.val_main_v47 (F := Ideal) x1 x2 x3 x4 x5 x6 x7 x8 = y
  have h : Shape.Reduces S13824x1728 [1] S13824 := by decide
  refine (congrArg (FloatOps.maximumf (F := Ideal) (φ := .f32) _)
    (Host.reduce_eq_fold_single (FloatOps.maximumf (F := Ideal) (φ := .f32)) (y : S13824x1728.Idx → EReal)
      (Read.val_main_cst_3 (F := Ideal)) Gen.reducesTo_S13824x1728_S13824_d1 h Gen.h_S_ (ix1 r))).trans ?_
  have hf : (y ∘ h.lift (ix1 r)) = fun k : Fin 1728 => y (ix2 r k) :=
    funext fun k => congrArg y (funext fun d => Fin.ext (by match d with | ⟨0, _⟩ => rfl | ⟨1, _⟩ => rfl))
  refine (congrArg (fun g : Fin 1728 → EReal => max (Ideal.ofBits .f32 0xFF800000#32)
    ((Finset.univ : Finset (Fin 1728)).fold max (Ideal.ofBits .f32 0xFF800000#32) g)) hf).trans ?_
  exact max_fold_max_self _ _ _

/-- The shifted exponential. -/
theorem v54_at (r : Fin 13824) (k : Fin 1728) :
    Read.val_main_v54 (F := Ideal) x1 x2 x3 x4 x5 x6 x7 x8 (ix2 r k) = shiftedExp (fun k => Read.val_main_v47 (F := Ideal) x1 x2 x3 x4 x5 x6 x7 x8 (ix2 r k)) k := by
  have e0 : Read.idx_main_v51 (Read.idx_main_v52 (ix2 r k)) = ix1 r :=
    funext fun d => Fin.ext (by match d with | ⟨0, _⟩ => rfl)
  rw [Read.val_main_v54_apply, Read.val_main_v53_apply, Read.val_main_v52_apply, Read.val_main_v51_apply, e0, v50_at]
  rfl

/-- The row sum of the shifted exponentials. -/
theorem v55_at (r : Fin 13824) :
    Read.val_main_v55 (F := Ideal) x1 x2 x3 x4 x5 x6 x7 x8 (ix1 r) = ∑ k : Fin 1728, shiftedExp (fun k => Read.val_main_v47 (F := Ideal) x1 x2 x3 x4 x5 x6 x7 x8 (ix2 r k)) k := by
  rw [Read.val_main_v55_apply, Read.val_main_cst_5_apply, Ideal.ofBits_def, Ideal.ofBits_zero_f32, zero_add]
  refine Finset.sum_congr rfl fun k _ => ?_
  have e0 : Read.idx_main_v55 (ix1 r) k = ix2 r k :=
    funext fun d => Fin.ext (by match d with | ⟨0, _⟩ => rfl | ⟨1, _⟩ => rfl)
  rw [e0, v54_at]

/-- The softmax weight. -/
theorem v58_at (r : Fin 13824) (k : Fin 1728) :
    Read.val_main_v58 (F := Ideal) x1 x2 x3 x4 x5 x6 x7 x8 (ix2 r k)
      = weights (fun e => x1 (ix2 r e)) (fun e => x3 (ix2 r e)) (fun a e => x5 (ix2 a e)) (fun a => x6 (ix1 a)) (domLin x2 x4 x7 x8) k := by
  have e0 : Read.idx_main_v56 (Read.idx_main_v57 (ix2 r k)) = ix1 r :=
    funext fun d => Fin.ext (by match d with | ⟨0, _⟩ => rfl)
  rw [Read.val_main_v58_apply, Read.val_main_v57_apply, Read.val_main_v56_apply, e0, v55_at, v54_at, Ideal.hostDivf_def]
  have hL : (fun k => Read.val_main_v47 (F := Ideal) x1 x2 x3 x4 x5 x6 x7 x8 (ix2 r k)) = fun k => dots (lin (base (fun e => x1 (ix2 r e)) (fun e => x3 (ix2 r e))) (fun a e => x5 (ix2 a e)) (fun a => x6 (ix1 a))) (domLin x2 x4 x7 x8) k * cQuarter :=
    funext fun k => v47_at x1 x2 x3 x4 x5 x6 x7 x8 r k
  rw [hL]
  rfl

end Cert.ReferenceIdeal.RefValue
end
-- ==== Proof.RefValue.lean ====
/-
  The reference's result read at an index: the weighted, contrast-scaled column sum plus the weighted offset sum, which
  is the specification's `result`.
-/
import proofs.«112807_j4784593568517_2_alg».proof.Proof.Gen.ReferenceIdeal.Read
import proofs.«112807_j4784593568517_2_alg».proof.Proof.Spec
import proofs.«112807_j4784593568517_2_alg».proof.Proof.RefValueC

noncomputable section
namespace Cert.ReferenceIdeal.RefValue
open Idealize.ShloMosaic Idealize.ShloMosaic.ValueIdx Cert.ReferenceIdeal Cert.Attn

theorem ref_apply (x0 : (⟨S1728x4x4x4, .f32⟩ : BufTy).Contents (Elt Ideal)) (x1 : (⟨S13824x512, .f32⟩ : BufTy).Contents (Elt Ideal)) (x2 : (⟨S1728x512, .f32⟩ : BufTy).Contents (Elt Ideal)) (x3 : (⟨S13824x512, .f32⟩ : BufTy).Contents (Elt Ideal)) (x4 : (⟨S1728x512, .f32⟩ : BufTy).Contents (Elt Ideal)) (x5 : (⟨S256x512, .f32⟩ : BufTy).Contents (Elt Ideal)) (x6 : (⟨S256, .f32⟩ : BufTy).Contents (Elt Ideal)) (x7 : (⟨S256x512, .f32⟩ : BufTy).Contents (Elt Ideal)) (x8 : (⟨S256, .f32⟩ : BufTy).Contents (Elt Ideal)) (x9 : (⟨S128x512, .f32⟩ : BufTy).Contents (Elt Ideal)) (x10 : (⟨S128, .f32⟩ : BufTy).Contents (Elt Ideal)) (x11 : (⟨S128x512, .f32⟩ : BufTy).Contents (Elt Ideal)) (x12 : (⟨S128, .f32⟩ : BufTy).Contents (Elt Ideal)) (x13 : (⟨S128x512, .f32⟩ : BufTy).Contents (Elt Ideal)) (x14 : (⟨S128, .f32⟩ : BufTy).Contents (Elt Ideal)) (x15 : (⟨S128x512, .f32⟩ : BufTy).Contents (Elt Ideal)) (x16 : (⟨S128, .f32⟩ : BufTy).Contents (Elt Ideal))
    (r : Fin 13824) (j : Fin 64) :
    Read.val_main_v66 (F := Ideal) x0 x1 x2 x3 x4 x5 x6 x7 x8 x9 x10 x11 x12 x13 x14 x15 x16 (ix2 r j)
      = result (Read.val_main_v59 (F := Ideal) x0) x1 x2 x3 x4 x5 x6 x7 x8 x9 x10 x11 x12 x13 x14 x15 x16 r j := by
  have e0 : Read.idx_main_v64 (Read.idx_main_v65 (ix2 r j)) = ix1 r :=
    funext fun d => Fin.ext (by match d with | ⟨0, _⟩ => rfl)
  rw [Read.val_main_v66_apply, Read.val_main_v61_apply, Read.val_main_v65_apply, Read.val_main_v64_apply, e0,
    Read.val_main_v63_apply, Read.val_main_cst_6_apply, Ideal.ofBits_def, Ideal.ofBits_zero_f32, zero_add, Ideal.addf_def]
  unfold result rowOut
  refine congrArg₂ (· + ·) (Finset.sum_congr rfl fun k _ => ?_) (Finset.sum_congr rfl fun k _ => ?_)
  · have e1 : Read.lidx_main_v61 (ix2 r j) k = ix2 r k :=
      funext fun d => Fin.ext (by match d with | ⟨0, _⟩ => rfl | ⟨1, _⟩ => rfl)
    have e2 : Read.ridx_main_v61 (ix2 r j) k = ix2 k j :=
      funext fun d => Fin.ext (by match d with | ⟨0, _⟩ => rfl | ⟨1, _⟩ => rfl)
    rw [e1, e2, Read.val_main_v60_apply, v58_at, v28_at, Ideal.mulf_def]
  · have e3 : Read.idx_main_v63 (ix1 r) k = ix2 r k :=
      funext fun d => Fin.ext (by match d with | ⟨0, _⟩ => rfl | ⟨1, _⟩ => rfl)
    rw [e3, Read.val_main_v62_apply, v58_at, v43_at, Ideal.mulf_def]

end Cert.ReferenceIdeal.RefValue
end
-- ==== Proof.RefArray.lean ====
/-
  The reference's returned array: the reshape to 13824 x 4 x 4 x 4 of the specification's 13824 x 64 result.
-/
import proofs.«112807_j4784593568517_2_alg».proof.Proof.RefValue
import proofs.«112807_j4784593568517_2_alg».proof.Proof.ResultArray

noncomputable section

namespace Cert.ReferenceIdeal.RefValue

open Idealize.ShloMosaic Idealize.ShloMosaic.ValueIdx Cert.ReferenceIdeal Cert.ReferenceIdeal.Gen Cert.Attn

/-- The last stage is the reshape of the stage before it, which is the specification's result entry by entry. -/
theorem ref_result (x0 : (⟨S1728x4x4x4, .f32⟩ : BufTy).Contents (Elt Ideal)) (x1 : (⟨S13824x512, .f32⟩ : BufTy).Contents (Elt Ideal)) (x2 : (⟨S1728x512, .f32⟩ : BufTy).Contents (Elt Ideal)) (x3 : (⟨S13824x512, .f32⟩ : BufTy).Contents (Elt Ideal)) (x4 : (⟨S1728x512, .f32⟩ : BufTy).Contents (Elt Ideal)) (x5 : (⟨S256x512, .f32⟩ : BufTy).Contents (Elt Ideal)) (x6 : (⟨S256, .f32⟩ : BufTy).Contents (Elt Ideal)) (x7 : (⟨S256x512, .f32⟩ : BufTy).Contents (Elt Ideal)) (x8 : (⟨S256, .f32⟩ : BufTy).Contents (Elt Ideal)) (x9 : (⟨S128x512, .f32⟩ : BufTy).Contents (Elt Ideal)) (x10 : (⟨S128, .f32⟩ : BufTy).Contents (Elt Ideal)) (x11 : (⟨S128x512, .f32⟩ : BufTy).Contents (Elt Ideal)) (x12 : (⟨S128, .f32⟩ : BufTy).Contents (Elt Ideal)) (x13 : (⟨S128x512, .f32⟩ : BufTy).Contents (Elt Ideal)) (x14 : (⟨S128, .f32⟩ : BufTy).Contents (Elt Ideal)) (x15 : (⟨S128x512, .f32⟩ : BufTy).Contents (Elt Ideal)) (x16 : (⟨S128, .f32⟩ : BufTy).Contents (Elt Ideal)) :
    Read.val_main_v67 (F := Ideal) x0 x1 x2 x3 x4 x5 x6 x7 x8 x9 x10 x11 x12 x13 x14 x15 x16
      = shapeCast S13824x4x4x4 (resultFlat (shapeCast S1728x64 x0 shapeCasts_S1728x4x4x4_S1728x64) x1 x2 x3 x4 x5 x6 x7 x8 x9 x10 x11 x12 x13 x14 x15 x16) shapeCasts_S13824x64_S13824x4x4x4 := by
  unfold Read.val_main_v67
  refine congrArg (fun X => shapeCast S13824x4x4x4 X shapeCasts_S13824x64_S13824x4x4x4) (funext fun i => ?_)
  obtain ⟨r, j, rfl⟩ : ∃ (r : Fin 13824) (j : Fin 64), i = ix2 r j := ⟨i 0, i 1, eq_ix2 i⟩
  rw [resultFlat_apply]
  exact ref_apply x0 x1 x2 x3 x4 x5 x6 x7 x8 x9 x10 x11 x12 x13 x14 x15 x16 r j

end Cert.ReferenceIdeal.RefValue

end
-- ==== Proof.LibRowOps.lean ====
/-
  General lemmas about matrices of extended reals read entry by entry: a product of two matrices accumulated into zero, with
  the second operand contracted along its second axis (rows against rows) or along its first (the plain product), is the
  finite sum of the entries' products; a vector kept as a column (a unit second axis) and spread over the columns of a
  matrix reads its own row; and the sum, or the maximum, along the rows of a matrix is the finite sum, or the fold of max,
  over that row's entries.
-/
import Idealize.ShloMosaic.Lib.ValueLayout
import Idealize.ShloMosaic.PureOps.Ideal.Laws

noncomputable section
namespace Cert.KernelIdeal.Pay
open Idealize.ShloMosaic Idealize.ShloMosaic.ValueIdx

/-! ## A product of two matrices read at an entry -/

section Rows
variable (M K N : Nat)

/-- Contracting the second axis of both operands: the left index keeps the output's row on axis 0. -/
theorem rows_lhs0 (y : (⟨2, ![M, N]⟩ : Shape).Idx) (q : (DotDims.transposedRhs M K N).contr.Idx) :
    ((DotDims.transposedRhs M K N).lhsIdx y q 0).val = (y 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
/-- … and the right index keeps the output's column on axis 0. -/
theorem rows_rhs0 (y : (⟨2, ![M, N]⟩ : Shape).Idx) (q : (DotDims.transposedRhs M K N).contr.Idx) :
    ((DotDims.transposedRhs M K N).rhsIdx y q 0).val = (y 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- `A` (M x K) against `B` (N x K), both contracted along their second axis, accumulated into zero: entry `(i, j)` is
    the dot product of row `i` of `A` and row `j` of `B`. -/
theorem matmul_rows_apply {φ₁ φ₂ : FTy} (prec : Option ContractPrecision)
    (A : FVec Ideal ⟨2, ![M, K]⟩ φ₁) (B : FVec Ideal ⟨2, ![N, K]⟩ φ₂) (i : Fin M) (j : Fin N) :
    matmul (DotDims.transposedRhs M K N) prec A B (constant ⟨2, ![M, N]⟩ .f32 0x00000000#32) (ix2 i j)
      = ∑ e : Fin K, A (ix2 i e) * B (ix2 j e) := by
  show FloatOps.matmul _ _ _ _ _ _ = _
  rw [Ideal.matmul_constant_zero_apply, ← Equiv.sum_comp (contrEquiv1 (DotDims.transposedRhs M K N) K rfl rfl).symm]
  refine Finset.sum_congr rfl fun e _ => ?_
  have he := contrEquiv1_symm_val (DotDims.transposedRhs M K N) K rfl rfl e
  have el : (DotDims.transposedRhs M K N).lhsIdx (ix2 i j) ((contrEquiv1 (DotDims.transposedRhs M K N) K rfl rfl).symm e) = ix2 i e :=
    funext fun a => Fin.ext (by
      match a with
      | ⟨0, _⟩ => exact rows_lhs0 M K N _ _
      | ⟨1, _⟩ => exact ((DotDims.transposedRhs M K N).lhsIdx_val_of_single rfl _ _).trans he)
  have er : (DotDims.transposedRhs M K N).rhsIdx (ix2 i j) ((contrEquiv1 (DotDims.transposedRhs M K N) K rfl rfl).symm e) = ix2 j e :=
    funext fun a => Fin.ext (by
      match a with
      | ⟨0, _⟩ => exact rows_rhs0 M K N _ _
      | ⟨1, _⟩ => exact ((DotDims.transposedRhs M K N).rhsIdx_val_of_single rfl _ _).trans he)
  rw [el, er]

end Rows

section Plain
variable (M K N : Nat)

/-- The plain product: the left index keeps the output's row on axis 0. -/
theorem plain_lhs0 (y : (⟨2, ![M, N]⟩ : Shape).Idx) (q : (DotDims.plain M K N).contr.Idx) :
    ((DotDims.plain M K N).lhsIdx y q 0).val = (y 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
/-- … and the right index keeps the output's column on axis 1. -/
theorem plain_rhs1 (y : (⟨2, ![M, N]⟩ : Shape).Idx) (q : (DotDims.plain M K N).contr.Idx) :
    ((DotDims.plain M K N).rhsIdx y q 1).val = (y 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `A` (M x K) against `B` (K x N), the plain product accumulated into zero: entry `(i, j)` is the dot product of row
    `i` of `A` and column `j` of `B`. -/
theorem matmul_plain_apply {φ₁ φ₂ : FTy} (prec : Option ContractPrecision)
    (A : FVec Ideal ⟨2, ![M, K]⟩ φ₁) (B : FVec Ideal ⟨2, ![K, N]⟩ φ₂) (i : Fin M) (j : Fin N) :
    matmul (DotDims.plain M K N) prec A B (constant ⟨2, ![M, N]⟩ .f32 0x00000000#32) (ix2 i j)
      = ∑ e : Fin K, A (ix2 i e) * B (ix2 e j) := by
  show FloatOps.matmul _ _ _ _ _ _ = _
  rw [Ideal.matmul_constant_zero_apply, ← Equiv.sum_comp (contrEquiv1 (DotDims.plain M K N) K rfl rfl).symm]
  refine Finset.sum_congr rfl fun e _ => ?_
  have he := contrEquiv1_symm_val (DotDims.plain M K N) K rfl rfl e
  have el : (DotDims.plain M K N).lhsIdx (ix2 i j) ((contrEquiv1 (DotDims.plain M K N) K rfl rfl).symm e) = ix2 i e :=
    funext fun a => Fin.ext (by
      match a with
      | ⟨0, _⟩ => exact plain_lhs0 M K N _ _
      | ⟨1, _⟩ => exact ((DotDims.plain M K N).lhsIdx_val_of_single rfl _ _).trans he)
  have er : (DotDims.plain M K N).rhsIdx (ix2 i j) ((contrEquiv1 (DotDims.plain M K N) K rfl rfl).symm e) = ix2 e j :=
    funext fun a => Fin.ext (by
      match a with
      | ⟨0, _⟩ => exact ((DotDims.plain M K N).rhsIdx_val_of_single rfl _ _).trans he
      | ⟨1, _⟩ => exact plain_rhs1 M K N _ _)
  rw [el, er]

end Plain

/-! ## A column kept as a unit axis -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row statistic kept as a column and spread over `b` columns reads, at `(p, c)`, the statistic of row `p`. -/
theorem keepdims_apply {α : Type} {a b : ℕ} (x : (⟨1, ![a]⟩ : Shape).Idx → α)
    (h : (⟨1, ![a]⟩ : Shape).ShapeCasts ⟨2, ![a, 1]⟩) (h' : (⟨2, ![a, 1]⟩ : Shape).Broadcasts ⟨2, ![a, b]⟩)
    (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-! ## A reduction along the rows of a matrix -/

/-- The source index over row `p` with column `k` inserted. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The sum along axis 1 of an `[a, b]` array, at row `p`, is the sum of that row's `b` entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = _
  exact Finset.sum_congr rfl fun k _ => congrArg src (lift_row h p k)

/-- The maximum along axis 1 of an `[a, b]` array, at row `p`, is the fold of `max` from the accumulator's value over
    that row's `b` entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  show (Finset.univ : Finset (Fin b)).fold max (Ideal.ofBits φ acc) (fun k => src (h.lift (ix1 p) k)) = _
  exact congrArg (fun f => (Finset.univ : Finset (Fin b)).fold max (Ideal.ofBits φ acc) f) (funext fun k => congrArg src (lift_row h p k))

end Cert.KernelIdeal.Pay
end
-- ==== Proof.PayloadA.lean ====
import proofs.«112807_j4784593568517_2_alg».proof.Proof.Gen.KernelIdeal.Frame
import proofs.«112807_j4784593568517_2_alg».proof.Proof.Spec
import proofs.«112807_j4784593568517_2_alg».proof.Proof.LibRowOps

noncomputable section
namespace Cert.KernelIdeal.Pay
open Idealize.ShloMosaic Idealize.ShloMosaic.ValueIdx Cert.KernelIdeal Cert.Attn

/-- The zero offsets of a whole-buffer rectangle, as a function. -/
theorem hz : (![0, 0] : Fin 2 → Nat) = fun _ => 0 := funext fun a => by fin_cases a <;> rfl

/-! ## Region 0: the two affine images of a domain row -/

/-- The domain projection's product contracts the second axis of both operands. -/
theorem dot0_eq : dot_S1728x512_S256x512_S1728x256_1_1_0_0_n_n = DotDims.transposedRhs 1728 512 256 := rfl

/-- The first stored value at `(k, a)`: row `k` of `v0 + v1` dotted against row `a` of the weights, plus the bias. -/
theorem k0_pay2_apply (v0 v1 : Vec Ideal S1728x512 .f32) (v4 : Vec Ideal S256x512 .bf16) (v9 : Vec Ideal S1x256 .f32)
    (k : Fin 1728) (a : Fin 256) :
    Gen.k0_pay2 (F := Ideal) v0 v1 v4 v9 (ix2 k a)
      = lin (fun e => v0 (ix2 k e) + v1 (ix2 k e)) (fun a e => v4 (ix2 a e)) (fun a => v9 (ix2 (0 : Fin 1) a)) a := by
  unfold Gen.k0_pay2 Gen.k0_pay1 lin
  dsimp only
  refine (addf_apply _ _ _).trans ?_
  refine congrArg₂ (· + ·) ?_ ?_
  · rw [shapeCast_self, dot0_eq]
    exact matmul_rows_apply 1728 512 256 none _ _ k a
  · rw [shapeCast_self]
    exact broadcastTo_1b_ab_apply _ _ k a

/-- The second stored value at `(k, a)`: the same with the second pair of weights and bias. -/
theorem k0_pay3_apply (v0 v1 : Vec Ideal S1728x512 .f32) (v6 : Vec Ideal S256x512 .bf16) (v15 : Vec Ideal S1x256 .f32)
    (k : Fin 1728) (a : Fin 256) :
    Gen.k0_pay3 (F := Ideal) v0 v1 v6 v15 (ix2 k a)
      = lin (fun e => v0 (ix2 k e) + v1 (ix2 k e)) (fun a e => v6 (ix2 a e)) (fun a => v15 (ix2 (0 : Fin 1) a)) a := by
  unfold Gen.k0_pay3 Gen.k0_pay1 lin
  dsimp only
  refine (addf_apply _ _ _).trans ?_
  refine congrArg₂ (· + ·) ?_ ?_
  · rw [shapeCast_self, dot0_eq]
    exact matmul_rows_apply 1728 512 256 none _ _ k a
  · rw [shapeCast_self]
    exact broadcastTo_1b_ab_apply _ _ k a

end Cert.KernelIdeal.Pay
end
-- ==== Proof.PayloadB.lean ====
import proofs.«112807_j4784593568517_2_alg».proof.Proof.Gen.KernelIdeal.Frame
import proofs.«112807_j4784593568517_2_alg».proof.Proof.Spec
import proofs.«112807_j4784593568517_2_alg».proof.Proof.PayloadA

noncomputable section
namespace Cert.KernelIdeal.Pay
open Idealize.ShloMosaic Idealize.ShloMosaic.ValueIdx Cert.KernelIdeal Cert.Attn

/-! ## Region 1, first part: the projections of a range row and the domain tables it is scored against -/

/-- The range projection's product contracts the second axis of both operands. -/
theorem dot1_eq : dot_S1152x512_S256x512_S1152x256_1_1_0_0_n_n = DotDims.transposedRhs 1152 512 256 := rfl
/-- So does the product of the projected rows with the domain table. -/
theorem dotS_eq : dot_S1152x256_S1728x256_S1152x1728_1_1_0_0_n_n = DotDims.transposedRhs 1152 256 1728 := rfl

/-- The 256-wide affine image of range row `p` at `a`. -/
theorem k1_pay3_apply (v0 v1 : Vec Ideal S1152x512 .f32) (v6 : Vec Ideal S256x512 .bf16) (v14 : Vec Ideal S1x256 .f32)
    (p : Fin 1152) (a : Fin 256) :
    Gen.k1_pay3 (F := Ideal) v0 v1 v6 v14 (ix2 p a)
      = lin (fun e => v0 (ix2 p e) + v1 (ix2 p e)) (fun a e => v6 (ix2 a e)) (fun a => v14 (ix2 (0 : Fin 1) a)) a := by
  unfold Gen.k1_pay3 Gen.k1_pay2 lin
  dsimp only
  refine (addf_apply _ _ _).trans ?_
  refine congrArg₂ (· + ·) ?_ ?_
  · rw [shapeCast_self, dot1_eq]
    exact matmul_rows_apply 1152 512 256 none _ _ p a
  · rw [shapeCast_self]
    exact broadcastTo_1b_ab_apply _ _ p a

/-- Its first half: the affine image under rows `lo h` of the weights and bias. -/
theorem k1_pay4_apply (v0 v1 : Vec Ideal S1152x512 .f32) (v6 : Vec Ideal S256x512 .bf16) (v14 : Vec Ideal S1x256 .f32)
    (p : Fin 1152) (h : Fin 128) :
    Gen.k1_pay4 (F := Ideal) v0 v1 v6 v14 (ix2 p h)
      = lin (fun e => v0 (ix2 p e) + v1 (ix2 p e)) (fun h e => v6 (ix2 (lo h) e)) (fun h => v14 (ix2 (0 : Fin 1) (lo h))) h := by
  unfold Gen.k1_pay4
  show extractStridedSlice S1152x128 ![0, 0] (Gen.k1_pay3 (F := Ideal) v0 v1 v6 v14) Gen.slices_S1152x256_o0_0_S1152x128 (ix2 p h) = _
  refine (slice2_axis1_apply 0 _ _ p h (lo h) (Nat.zero_add _).symm).trans ?_
  exact k1_pay3_apply v0 v1 v6 v14 p (lo h)

/-- Its second half: the affine image under rows `hi h`. -/
theorem k1_pay5_apply (v0 v1 : Vec Ideal S1152x512 .f32) (v6 : Vec Ideal S256x512 .bf16) (v14 : Vec Ideal S1x256 .f32)
    (p : Fin 1152) (h : Fin 128) :
    Gen.k1_pay5 (F := Ideal) v0 v1 v6 v14 (ix2 p h)
      = lin (fun e => v0 (ix2 p e) + v1 (ix2 p e)) (fun h e => v6 (ix2 (hi h) e)) (fun h => v14 (ix2 (0 : Fin 1) (hi h))) h := by
  unfold Gen.k1_pay5
  show extractStridedSlice S1152x128 ![0, 128] (Gen.k1_pay3 (F := Ideal) v0 v1 v6 v14) Gen.slices_S1152x256_o0_128_S1152x128 (ix2 p h) = _
  refine (slice2_axis1_apply 128 _ _ p h (hi h) rfl).trans ?_
  exact k1_pay3_apply v0 v1 v6 v14 p (hi h)

/-- The first half of a domain table's columns. -/
theorem k1_pay7_apply (v26 : Vec Ideal S1728x256 .f32) (k : Fin 1728) (h : Fin 128) :
    Gen.k1_pay7 (F := Ideal) v26 (ix2 k h) = v26 (ix2 k (lo h)) := by
  unfold Gen.k1_pay7 Gen.k1_pay6
  dsimp only
  rw [shapeCast_self]
  show extractStridedSlice S1728x128 ![0, 0] v26 Gen.slices_S1728x256_o0_0_S1728x128 (ix2 k h) = _
  exact slice2_axis1_apply 0 _ _ k h (lo h) (Nat.zero_add _).symm

/-- The second half of a domain table's columns. -/
theorem k1_pay8_apply (v26 : Vec Ideal S1728x256 .f32) (k : Fin 1728) (h : Fin 128) :
    Gen.k1_pay8 (F := Ideal) v26 (ix2 k h) = v26 (ix2 k (hi h)) := by
  unfold Gen.k1_pay8 Gen.k1_pay6
  dsimp only
  rw [shapeCast_self]
  show extractStridedSlice S1728x128 ![0, 128] v26 Gen.slices_S1728x256_o0_128_S1728x128 (ix2 k h) = _
  exact slice2_axis1_apply 128 _ _ k h (hi h) rfl

/-- The pooled columns pass through unchanged. -/
theorem k1_pay9_eq (v32 : Vec Ideal S1728x128 .bf16) : Gen.k1_pay9 (F := Ideal) v32 = v32 :=
  shapeCast_self _ _

/-- The scaled scores of range row `p` against domain row `k`. -/
theorem k1_pay10_apply (v0 v1 : Vec Ideal S1152x512 .f32) (v4 : Vec Ideal S256x512 .bf16) (v9 : Vec Ideal S1x256 .f32)
    (v23 : Vec Ideal S1728x256 .f32) (p : Fin 1152) (k : Fin 1728) :
    Gen.k1_pay10 (F := Ideal) v0 v1 v4 v9 v23 (ix2 p k)
      = dots (lin (fun e => v0 (ix2 p e) + v1 (ix2 p e)) (fun a e => v4 (ix2 a e)) (fun a => v9 (ix2 (0 : Fin 1) a)))
          (fun k a => v23 (ix2 k a)) k * cQuarter := by
  unfold Gen.k1_pay10 dots
  dsimp only
  refine (mulf_apply _ _ _).trans ?_
  refine congrArg₂ (· * ·) ?_ rfl
  rw [dotS_eq]
  refine (matmul_rows_apply 1152 256 1728 none _ _ p k).trans ?_
  refine Finset.sum_congr rfl fun a _ => congrArg₂ (· * ·) ?_ ?_
  · exact k1_pay3_apply v0 v1 v4 v9 p a
  · exact congrFun (shapeCast_self v23 _) (ix2 k a)

end Cert.KernelIdeal.Pay
end
-- ==== Proof.PaySoft.lean ====
import proofs.«112807_j4784593568517_2_alg».proof.Proof.Gen.KernelIdeal.Skeleton
import proofs.«112807_j4784593568517_2_alg».proof.Proof.Spec
import proofs.«112807_j4784593568517_2_alg».proof.Proof.LibRowOps

noncomputable section
namespace Cert.KernelIdeal.Pay
open Idealize.ShloMosaic Idealize.ShloMosaic.ValueIdx Cert.KernelIdeal Cert.Attn

/-! ## The softmax over a row of scores, as the kernel spells it -/

/-- Each score minus its row's maximum, exponentiated. -/
def expShift (l : FVec Ideal S1152x1728 .f32) : FVec Ideal S1152x1728 .f32 :=
  exp (subf l (broadcastTo S1152x1728 (shapeCast S1152x1
    (multiReduction (F := Ideal) .maximumf [1] S1152 l 0xFF800000#32 Gen.reduces_S1152x1728_S1152 (.inl rfl) rfl)
    Gen.shapeCasts_S1152_S1152x1) Gen.broadcasts_S1152x1_S1152x1728))

/-- At `(p, k)` it is the shifted exponential of row `p` at `k`. -/
theorem expShift_apply (l : FVec Ideal S1152x1728 .f32) (p : Fin 1152) (k : Fin 1728) :
    expShift l (ix2 p k) = shiftedExp (fun k => l (ix2 p k)) k := by
  unfold expShift shiftedExp
  refine congrArg (fun m => Ideal.exp (l (ix2 p k) - m)) ?_
  refine (keepdims_apply _ _ _ p k).trans ?_
  exact rowMax_apply l _ _ _ _ p

/-- The shifted exponentials divided by their row sums. -/
def soft (l : FVec Ideal S1152x1728 .f32) : FVec Ideal S1152x1728 .f32 :=
  divf (expShift l) (broadcastTo S1152x1728 (shapeCast S1152x1
    (multiReduction (F := Ideal) .add [1] S1152 (expShift l) 0x00000000#32 Gen.reduces_S1152x1728_S1152 (.inl rfl) rfl)
    Gen.shapeCasts_S1152_S1152x1) Gen.broadcasts_S1152x1_S1152x1728)

/-- At `(p, k)` it is the softmax weight of position `k` in row `p`. -/
theorem soft_apply (l : FVec Ideal S1152x1728 .f32) (p : Fin 1152) (k : Fin 1728) :
    soft l (ix2 p k) = softmax (fun k => l (ix2 p k)) k := by
  unfold soft softmax
  refine (divf_apply _ _ _).trans ?_
  refine congrArg₂ Ideal.div (expShift_apply l p k) ?_
  refine (keepdims_apply _ _ _ p k).trans ?_
  refine (rowSum_apply (expShift l) _ _ _ _ p).trans ?_
  exact Finset.sum_congr rfl fun k' _ => expShift_apply l p k'

end Cert.KernelIdeal.Pay
end
-- ==== Proof.PayRow.lean ====
import proofs.«112807_j4784593568517_2_alg».proof.Proof.PaySoft

noncomputable section
namespace Cert.KernelIdeal.Pay
open Idealize.ShloMosaic Idealize.ShloMosaic.ValueIdx Cert.KernelIdeal Cert.Attn

/-! ## One row of the attention output -/

/-- A head's score product contracts the second axis of both operands. -/
theorem dotH_eq : dot_S1152x128_S1728x128_S1152x1728_1_1_0_0_n_n = DotDims.transposedRhs 1152 128 1728 := rfl
/-- The output product is the plain one. -/
theorem dotO_eq : dot_S1152x1728_S1728x128_S1152x128_1_0_0_1_n_n = DotDims.plain 1152 1728 128 := rfl

/-- tanh of a head's scaled scores. -/
def headV (v : FVec Ideal S1152x128 .bf16) (w : FVec Ideal S1728x128 .bf16) : FVec Ideal S1152x1728 .f32 :=
  tanh (mulf (matmul dot_S1152x128_S1728x128_S1152x1728_1_1_0_0_n_n none v w (constant S1152x1728 .f32 0x00000000#32))
    (broadcast S1152x1728 (Scalar.ofBits (F := Ideal) .f32 0x3DB504F3#32)))

/-- At `(p, k)`: tanh of row `p` of `v` dotted against row `k` of `w`, scaled. -/
theorem headV_apply (v : FVec Ideal S1152x128 .bf16) (w : FVec Ideal S1728x128 .bf16) (p : Fin 1152) (k : Fin 1728) :
    headV v w (ix2 p k) = Ideal.tanh (dots (fun h => v (ix2 p h)) (fun k h => w (ix2 k h)) k * cInvSqrt) := by
  unfold headV dots
  refine congrArg (fun m => Ideal.tanh (m * cInvSqrt)) ?_
  rw [dotH_eq]
  exact matmul_rows_apply 1152 128 1728 none v w p k

/-- The stored value of region 1 in terms of the row softmax and the two heads. -/
theorem pay1_eq (v20 v22 : FVec Ideal S1152x128 .bf16) (v29 v31 v33 : FVec Ideal S1728x128 .bf16)
    (v36 : FVec Ideal S1152x1728 .f32) :
    Gen.k1_pay1 (F := Ideal) v20 v22 v29 v31 v33 v36
      = addf (matmul dot_S1152x1728_S1728x128_S1152x128_1_0_0_1_n_n none
            (truncf .bf16 (mulf (soft v36) (mulf (headV v20 v29) (broadcast S1152x1728 (Scalar.ofBits (F := Ideal) .f32 0x3FE66666#32))))
              Gen.bitsLt_bf16_f32) v33 (constant S1152x128 .f32 0x00000000#32))
          (broadcastTo S1152x128 (shapeCast S1152x1
            (multiReduction (F := Ideal) .add [1] S1152 (mulf (soft v36) (headV v22 v31)) 0x00000000#32
              Gen.reduces_S1152x1728_S1152 (.inl rfl) rfl)
            Gen.shapeCasts_S1152_S1152x1) Gen.broadcasts_S1152x1_S1152x128) := rfl

theorem pay1_apply (v20 v22 : FVec Ideal S1152x128 .bf16) (v29 v31 v33 : FVec Ideal S1728x128 .bf16) (v36 : FVec Ideal S1152x1728 .f32) (p : Fin 1152) (q : Fin 128) :
    Gen.k1_pay1 (F := Ideal) v20 v22 v29 v31 v33 v36 (ix2 p q)
      = (∑ k : Fin 1728, (softmax (fun k => v36 (ix2 p k)) k * (Ideal.tanh (dots (fun h => v20 (ix2 p h)) (fun k h => v29 (ix2 k h)) k * cInvSqrt) * cContrast)) * v33 (ix2 k q))
        + ∑ k : Fin 1728, softmax (fun k => v36 (ix2 p k)) k * Ideal.tanh (dots (fun h => v22 (ix2 p h)) (fun k h => v31 (ix2 k h)) k * cInvSqrt) := by
  rw [pay1_eq]
  refine (addf_apply _ _ _).trans ?_
  refine congrArg₂ (· + ·) ?_ ?_
  · rw [dotO_eq]
    refine (matmul_plain_apply 1152 1728 128 none _ v33 p q).trans ?_
    refine Finset.sum_congr rfl fun k _ => congrArg (· * v33 (ix2 k q)) ?_
    refine congrArg₂ (· * ·) (soft_apply v36 p k) ?_
    exact congrArg (· * cContrast) (headV_apply v20 v29 p k)
  · refine (keepdims_apply _ _ _ p q).trans ?_
    refine (rowSum_apply _ _ _ _ _ p).trans ?_
    exact Finset.sum_congr rfl fun k _ => congrArg₂ (· * ·) (soft_apply v36 p k) (headV_apply v22 v31 p k)

end Cert.KernelIdeal.Pay
end
-- ==== Proof.Payload.lean ====
import proofs.«112807_j4784593568517_2_alg».proof.Proof.Gen.KernelIdeal.Frame
import proofs.«112807_j4784593568517_2_alg».proof.Proof.Spec
import proofs.«112807_j4784593568517_2_alg».proof.Proof.PayloadB
import proofs.«112807_j4784593568517_2_alg».proof.Proof.PayRow

noncomputable section
namespace Cert.KernelIdeal.Pay
open Idealize.ShloMosaic Idealize.ShloMosaic.ValueIdx Cert.KernelIdeal Cert.Attn

/-! The kernel bodies' stored values read at an index: each whole-buffer store leaves its payload, and each
    whole-buffer load reads its block. -/

/-- Region 0's first output block at `(k, a)`: the affine image of domain row `k` under the first weights and bias. -/
theorem out0_6_apply (x0 x1 : Vec Ideal S1728x512 .f32) (x2 : Vec Ideal S256x512 .bf16) (x3 : Vec Ideal S1x256 .f32)
    (x4 : Vec Ideal S256x512 .bf16) (x5 : Vec Ideal S1x256 .f32) (k : Fin 1728) (a : Fin 256) :
    Gen.out0_6 (F := Ideal) x0 x1 x2 x3 x4 x5 (ix2 k a)
      = lin (fun e => x0 (ix2 k e) + x1 (ix2 k e)) (fun a e => x2 (ix2 a e)) (fun a => x3 (ix2 (0 : Fin 1) a)) a := by
  unfold Gen.out0_6
  rw [View.canon_unit_zero hz]
  simp only [View.ld_unit_zero (S := S1728x512) hz, View.ld_unit_zero (S := S256x512) hz, View.ld_unit_zero (S := S1x256) hz]
  exact k0_pay2_apply x0 x1 x2 x3 k a

/-- Region 0's second output block at `(k, a)`: the same under the second weights and bias. -/
theorem out0_7_apply (x0 x1 : Vec Ideal S1728x512 .f32) (x2 : Vec Ideal S256x512 .bf16) (x3 : Vec Ideal S1x256 .f32)
    (x4 : Vec Ideal S256x512 .bf16) (x5 : Vec Ideal S1x256 .f32) (k : Fin 1728) (a : Fin 256) :
    Gen.out0_7 (F := Ideal) x0 x1 x2 x3 x4 x5 (ix2 k a)
      = lin (fun e => x0 (ix2 k e) + x1 (ix2 k e)) (fun a e => x4 (ix2 a e)) (fun a => x5 (ix2 (0 : Fin 1) a)) a := by
  unfold Gen.out0_7
  rw [View.canon_unit_zero hz]
  simp only [View.ld_unit_zero (S := S1728x512) hz, View.ld_unit_zero (S := S256x512) hz, View.ld_unit_zero (S := S1x256) hz]
  exact k0_pay3_apply x0 x1 x4 x5 k a

/-- Region 1's output block at `(p, q)`: the attention output of range row `p` for pooled column `q`. -/
theorem out1_9_apply (x0 x1 : Vec Ideal S1152x512 .f32) (x2 : Vec Ideal S256x512 .bf16) (x3 : Vec Ideal S1x256 .f32)
    (x4 : Vec Ideal S256x512 .bf16) (x5 : Vec Ideal S1x256 .f32) (x6 x7 : Vec Ideal S1728x256 .f32)
    (x8 : Vec Ideal S1728x128 .bf16) (p : Fin 1152) (q : Fin 128) :
    Gen.out1_9 (F := Ideal) x0 x1 x2 x3 x4 x5 x6 x7 x8 (ix2 p q)
      = rowOut (fun e => x0 (ix2 p e)) (fun e => x1 (ix2 p e)) (fun a e => x2 (ix2 a e)) (fun a => x3 (ix2 (0 : Fin 1) a))
          (fun h e => x4 (ix2 (lo h) e)) (fun h => x5 (ix2 (0 : Fin 1) (lo h)))
          (fun h e => x4 (ix2 (hi h) e)) (fun h => x5 (ix2 (0 : Fin 1) (hi h)))
          (fun k a => x6 (ix2 k a)) (fun k h => x7 (ix2 k (lo h))) (fun k h => x7 (ix2 k (hi h)))
          (fun k => x8 (ix2 k q)) := by
  unfold Gen.out1_9
  rw [View.canon_unit_zero hz]
  simp only [View.ld_unit_zero (S := S1152x512) hz, View.ld_unit_zero (S := S256x512) hz, View.ld_unit_zero (S := S1x256) hz,
    View.ld_unit_zero (S := S1728x256) hz, View.ld_unit_zero (S := S1728x128) hz]
  refine (pay1_apply _ _ _ _ _ _ p q).trans ?_
  simp only [k1_pay10_apply, k1_pay4_apply, k1_pay5_apply, k1_pay7_apply, k1_pay8_apply, k1_pay9_eq]
  rfl

end Cert.KernelIdeal.Pay
end
-- ==== Proof.lean ====
/-
  The kernel (two pallas_calls: the domain-side projections, then attention over twelve blocks of 1152 range rows) against
  its jnp reference, at the extended reals.

  Both programs compute, for range row r and flattened pooled column j,
      sum_k w(r,k) * (tanh(c(r,k) / sqrt 128) * 1.8) * pooled(k,j)  +  sum_k w(r,k) * tanh(o(r,k) / sqrt 128),
  where w(r, .) is the softmax over the 1728 domain rows of the scaled dot products of the two 256-wide projections, and c, o
  the dot products of the two pairs of 128-wide projections; every projection is an affine image of positional + latents.
  The kernel differs from the reference only in arrangement: it merges the two 128-wide projections of each side into one
  256-row table and slices the halves back, rounds operands to bf16 before each matrix product (nothing at the extended
  reals), pads the pooled domains to 128 columns and cuts the result back to 64, tiles the range rows, and adds
  positional + latents in the other order.  None of this uses more than commutativity of addition and re-indexing of finite
  sums, so the precondition (finite inputs) is never opened.  The constants 1/4, the f32 nearest 1/sqrt 128, 1.8 and minus
  infinity are the same binary words in both programs and are never evaluated.

  The kernel's side: the run of its seven segments with the result buffer named (KernelRun), the buffer contents walked back
  through the segments to the arguments (HostReads, Region0, Region1, KernelValue), what each call's body stores at an index
  (Payload).  The reference's side: its generated run, read one operation at a time at an index (RefValue, RefArray).  Both
  end at the specification's `resultFlat` reshaped to 13824 x 4 x 4 x 4 (Spec, ResultArray).
-/
import proofs.«112807_j4784593568517_2_alg».proof.Defs
import proofs.«112807_j4784593568517_2_alg».proof.Proof.Gen.Kernel
import proofs.«112807_j4784593568517_2_alg».proof.Proof.Gen.Kernel.Skeleton
import proofs.«112807_j4784593568517_2_alg».proof.Proof.Gen.Kernel.Launch
import proofs.«112807_j4784593568517_2_alg».proof.Proof.Gen.Kernel.Points
import proofs.«112807_j4784593568517_2_alg».proof.Proof.Gen.Kernel.Frame
import proofs.«112807_j4784593568517_2_alg».proof.Proof.Gen.KernelIdeal
import proofs.«112807_j4784593568517_2_alg».proof.Proof.Gen.KernelIdeal.Skeleton
import proofs.«112807_j4784593568517_2_alg».proof.Proof.Gen.KernelIdeal.Launch
import proofs.«112807_j4784593568517_2_alg».proof.Proof.Gen.KernelIdeal.Points
import proofs.«112807_j4784593568517_2_alg».proof.Proof.Gen.KernelIdeal.Frame
import proofs.«112807_j4784593568517_2_alg».proof.Proof.Gen.ReferenceIdeal
import proofs.«112807_j4784593568517_2_alg».proof.Proof.Gen.Pre_finite_inputs
import proofs.«112807_j4784593568517_2_alg».proof.Proof.Gen.ReferenceIdeal.Run
import proofs.«112807_j4784593568517_2_alg».proof.Proof.Gen.ReferenceIdeal.Read
import proofs.«112807_j4784593568517_2_alg».proof.Proof.KernelRun
import proofs.«112807_j4784593568517_2_alg».proof.Proof.KernelValue
import proofs.«112807_j4784593568517_2_alg».proof.Proof.RefArray
import proofs.«112807_j4784593568517_2_alg».proof.Proof.Payload
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the specification's result, reshaped. -/
theorem algebraic : Cert.algebraic_KernelIdeal_ReferenceIdeal := by
  intro m ρ m' ρ' _ hagree
  refine ⟨fun c => shapeCast Cert.KernelIdeal.S13824x4x4x4
      (Cert.Attn.resultFlat (shapeCast Cert.KernelIdeal.S1728x64 (m ((c.tc : Thread Cert.KernelIdeal.nD Cert.KernelIdeal.τ).loc Cert.KernelIdeal.main_arg0) : Cert.KernelIdeal.S1728x4x4x4.Idx → EReal) Cert.KernelIdeal.Gen.shapeCasts_S1728x4x4x4_S1728x64)
        (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)))
      Cert.KernelIdeal.Gen.shapeCasts_S13824x64_S13824x4x4x4, ?_, ?_⟩
  · exact (θ_run Cert.KernelIdeal.defs _ _).mono
      (fun r h c => ⟨(h c).1.trans (Cert.KernelIdeal.KValue.result_v18 m ρ c
          Cert.KernelIdeal.Pay.out0_6_apply Cert.KernelIdeal.Pay.out0_7_apply Cert.KernelIdeal.Pay.out1_9_apply), (h c).2⟩)
      (Cert.KernelIdeal.RunV.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v67_eq, Cert.ReferenceIdeal.RefValue.ref_result]
    obtain ⟨e0, e1, e2, e3, e4, e5, e6, e7, e8, e9, e10, e11, e12, e13, e14, e15, e16⟩ := hagree c
    rw [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
